-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x4096 : Shape := ⟨3, ![4, 8192, 4096]⟩
abbrev S8192x4096 : Shape := ⟨2, ![8192, 4096]⟩
abbrev S4096 : Shape := ⟨1, ![4096]⟩
abbrev S_ : Shape := ⟨0, ![]⟩

class Facts : Prop where
  bcast_S_S4x8192x4096 : S_.BroadcastsInDim S4x8192x4096 (![] : Fin 0 → Fin S4x8192x4096.rank)
  reducesTo_S4x8192x4096_S_d0_1_2 : S4x8192x4096.ReducesTo [0, 1, 2] S_
  h_S_ : 0 < S_.numel
  bcast_S_S8192x4096 : S_.BroadcastsInDim S8192x4096 (![] : Fin 0 → Fin S8192x4096.rank)
  reducesTo_S8192x4096_S_d0_1 : S8192x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x8192x4096 .f32) (main_arg1 : FVec F S8192x4096 .f32) (main_arg2 : FVec F S4096 .f32) : IVec S_ 1 :=
  let main_v0 : FVec F S4x8192x4096 .f32 := Host.absf main_arg0
  let main_cst : FVec F S_ .f32 := constant S_ .f32 0x7F800000#32
  let main_v1 : FVec F S4x8192x4096 .f32 := broadcastInDim S4x8192x4096 ![] bcast_S_S4x8192x4096 main_cst
  let main_v2 : IVec S4x8192x4096 1 := cmpf .olt main_v0 main_v1
  let main_c : IVec S_ 1 := constantI S_ 1 1#1
  let main_v3 : IVec S_ 1 := (fun x v => Host.reduce IntOp.andi x v reducesTo_S4x8192x4096_S_d0_1_2 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x8192x4096 : Shape := ⟨3, ![4, 8192, 4096]⟩
abbrev S8192x4096 : Shape := ⟨2, ![8192, 4096]⟩
abbrev S4096 : Shape := ⟨1, ![4096]⟩
abbrev S1x1 : Shape := ⟨2, ![1, 1]⟩
abbrev S4x128x4096 : Shape := ⟨3, ![4, 128, 4096]⟩
abbrev S128x4096 : Shape := ⟨2, ![128, 4096]⟩
abbrev S128 : Shape := ⟨1, ![128]⟩
abbrev S128x1 : Shape := ⟨2, ![128, 1]⟩
abbrev S1x4096 : Shape := ⟨2, ![1, 4096]⟩
abbrev S1 : Shape := ⟨1, ![1]⟩
abbrev S256x4096 : Shape := ⟨2, ![256, 4096]⟩
abbrev S_ : Shape := ⟨0, ![]⟩

abbrev nBuf : Space → Nat
  | .hbm => 7
  | .vmem => 12
  | .smem => 0
  | _ => 0

abbrev bufTy : (tb : Table) → Fin (tcTables nBuf tb) → BufTy
  | .hbm, ⟨0, _⟩ => ⟨S4x8192x4096, .f32⟩
  | .hbm, ⟨1, _⟩ => ⟨S8192x4096, .f32⟩
  | .hbm, ⟨2, _⟩ => ⟨S4096, .f32⟩
  | .hbm, ⟨3, _⟩ => ⟨S8192x4096, .f32⟩
  | .hbm, ⟨4, _⟩ => ⟨S1x1, .f32⟩
  | .hbm, ⟨5, _⟩ => ⟨S8192x4096, .f32⟩
  | .hbm, ⟨6, _⟩ => ⟨S_, .f32⟩
  | .local _ .vmem, ⟨0, _⟩ => ⟨S4x128x4096, .f32⟩
  | .local _ .vmem, ⟨1, _⟩ => ⟨S4x128x4096, .f32⟩
  | .local _ .vmem, ⟨2, _⟩ => ⟨S4096, .f32⟩
  | .local _ .vmem, ⟨3, _⟩ => ⟨S128x4096, .f32⟩
  | .local _ .vmem, ⟨4, _⟩ => ⟨S128x4096, .f32⟩
  | .local _ .vmem, ⟨5, _⟩ => ⟨S1x1, .f32⟩
  | .local _ .vmem, ⟨6, _⟩ => ⟨S1x1, .f32⟩
  | .local _ .vmem, ⟨7, _⟩ => ⟨S256x4096, .f32⟩
  | .local _ .vmem, ⟨8, _⟩ => ⟨S256x4096, .f32⟩
  | .local _ .vmem, ⟨9, _⟩ => ⟨S1x1, .f32⟩
  | .local _ .vmem, ⟨10, _⟩ => ⟨S256x4096, .f32⟩
  | .local _ .vmem, ⟨11, _⟩ => ⟨S256x4096, .f32⟩
  | _, _ => ⟨S4x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![64], ![false]⟩

def k0_cond3 (i : grid0.Coords) : BitVec 1 :=
  let arg0 : BitVec 32 := BitVec.ofNat 32 (i 0).val
  let c63_i32 : BitVec 32 := 63#32
  let v28 : BitVec 1 := Scalar.cmpi .eq arg0 c63_i32
  let v29 : BitVec 32 := Scalar.extui v28
  let c0_i32_13 : BitVec 32 := 0#32
  let v30 : BitVec 1 := Scalar.cmpi .ne v29 c0_i32_13
  v30

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S4x128x4096_S4x128x4096_0_0_0 : ∀ a, (![0, 0, 0] : Fin 3 → Nat) a + S4x128x4096.size a ≤ S4x128x4096.size a
  h_S4x128x4096 : 0 < S4x128x4096.numel
  reduces_S4x128x4096_S128x4096 : S4x128x4096.Reduces [0] S128x4096
  reduces_S128x4096_S128 : S128x4096.Reduces [1] S128
  shapeCasts_S128_S128x1 : S128.ShapeCasts S128x1
  inb_S4096_S4096_0 : ∀ a, (![0] : Fin 1 → Nat) a + S4096.size a ≤ S4096.size a
  h_S4096 : 0 < S4096.numel
  broadcasts_S128x1_S128x4096 : S128x1.Broadcasts S128x4096
  shapeCasts_S4096_S1x4096 : S4096.ShapeCasts S1x4096
  broadcasts_S1x4096_S128x4096 : S1x4096.Broadcasts S128x4096
  inb_S128x4096_S128x4096_0_0 : ∀ a, (![0, 0] : Fin 2 → Nat) a + S128x4096.size a ≤ S128x4096.size a
  h_S128x4096 : 0 < S128x4096.numel
  reduces_S128x1_S1 : S128x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inpos_S1x1_p0_0 : ∀ a, (![0, 0] : Fin 2 → Nat) a < S1x1.size a
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x128x4096.size a ≤ S4x8192x4096.size a
  hwx0_0 : ∀ i : grid0.Coords, EltTy.bits .f32 = 32 ∨ (Rect.block (s := S4x8192x4096) S4x128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096.size a ≤ S4096.size a
  hwx0_1 : ∀ i : grid0.Coords, EltTy.bits .f32 = 32 ∨ (Rect.block (s := S4096) S4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S8192x4096.size a
  hwx0_2 : ∀ i : grid0.Coords, EltTy.bits .f32 = 32 ∨ (Rect.block (s := S8192x4096) S128x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S8192x4096.size a
  hwx1_0 : ∀ i : grid1.Coords, EltTy.bits .f32 = 32 ∨ (Rect.block (s := S8192x4096) S256x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x4096.size a ≤ S8192x4096.size a
  hwx1_2 : ∀ i : grid1.Coords, EltTy.bits .f32 = 32 ∨ (Rect.block (s := S8192x4096) S256x4096.size (cc1_transform_2 i) (hinb1_2 i)).WholeWords (EltTy.packing .f32)

variable [Facts₀]

abbrev win0_0 : Pipeline.Window sig grid0 :=
  Pipeline.Window.ofSpec (Memref.whole main_arg0) S4x128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S128x4096.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond3 i == 1#1) | ⟨_ + 4, h⟩ => absurd h (Nat.not_lt.2 (Nat.le_add_left _ _))

abbrev win1_0 : Pipeline.Window sig grid1 :=
  Pipeline.Window.ofSpec (Memref.whole main_v0_0) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S1x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S256x4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x8192x4096 : Shape := ⟨3, ![4, 8192, 4096]⟩
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 38
  | .vmem => 0
  | .smem => 0
  | _ => 0

abbrev bufTy : (tb : Table) → Fin (tcTables nBuf tb) → BufTy
  | .hbm, ⟨0, _⟩ => ⟨S4x8192x4096, .f32⟩
  | .hbm, ⟨1, _⟩ => ⟨S8192x4096, .f32⟩
  | .hbm, ⟨2, _⟩ => ⟨S4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x4096, .f32⟩
  | .hbm, ⟨17, _⟩ => ⟨S8192x4096, .f32⟩
  | .hbm, ⟨18, _⟩ => ⟨S1x4096, .f32⟩
  | .hbm, ⟨19, _⟩ => ⟨S8192x4096, .f32⟩
  | .hbm, ⟨20, _⟩ => ⟨S8192x4096, .f32⟩
  | .hbm, ⟨21, _⟩ => ⟨S8192x4096, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S8192x4096, .f32⟩
  | .hbm, ⟨29, _⟩ => ⟨S8192x4096, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S8192x4096, .f32⟩
  | .hbm, ⟨34, _⟩ => ⟨S8192x4096, .f32⟩
  | .hbm, ⟨35, _⟩ => ⟨S_, .f32⟩
  | .hbm, ⟨36, _⟩ => ⟨S8192x4096, .f32⟩
  | .hbm, ⟨37, _⟩ => ⟨S8192x4096, .f32⟩
  | _, _ => ⟨S4x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_cst_5 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_6 : Ref sig .tc := ⟨.hbm, 30, rfl⟩
abbrev main_cst_7 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_v20 : Ref sig .tc := ⟨.hbm, 37, rfl⟩

abbrev nD : Nat := 1
abbrev τ : Topo := Topo.v7x

variable {F : FTy → Type} [FloatOps F]

class Facts₀ : Prop where
  reducesTo_S4x8192x4096_S8192x4096_d0 : S4x8192x4096.ReducesTo [0] S8192x4096
  h_S_ : 0 < S_.numel
  reducesTo_S8192x4096_S8192_d1 : S8192x4096.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  reducesTo_S8192x4096_S_d0_1 : S8192x4096.ReducesTo [0, 1] S_
  bcast_S_S8192x4096 : S_.BroadcastsInDim S8192x4096 (![] : Fin 0 → Fin S8192x4096.rank)

variable [Facts₀]

class Facts : Prop extends Facts₀ where

variable [Facts]
-- ==== Proof.KBQuantBody.lean ====
/-
  The second kernel region (the quantizer) at any float instance: at every grid point the body loads the
  one-element scale block and a 256-row block of the normalised array, and stores ONE whole block
  clip(x / s) into the output window. Stated here: each window's block at a point as the region finds the
  arrays, what the output window's staging buffer holds after the body (its single store read back), the
  body's triple, the region's proof data, and the per-point body obligation.
-/
import proofs.«140853_j7095285973068_1_alg».proof.Proof.Gen.Kernel.Launch
import proofs.«140853_j7095285973068_1_alg».proof.Proof.Gen.Kernel.Skeleton
import proofs.«140853_j7095285973068_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The 256-row input block is in its staging buffer at every point (it is fetched at every point). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The scale block is in its staging buffer at every point: fetched at the first, and its block index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole 256x4096 block and the whole 1x1 block, as rectangles. -/
abbrev rq : Rect S256x4096 := Rect.unit (s := S256x4096) ![0, 0] S256x4096.size inb_S256x4096_S256x4096_0_0
abbrev rs : Rect S1x1 := Rect.unit (s := S1x1) ![0, 0] S1x1.size inb_S1x1_S1x1_0_0

/-- What the body leaves in the output window's staging buffer: its one store, of the clipped quotient of the
    loaded block by the loaded scale. -/
def out1_2 (x0 : Vec F S256x4096 .f32) (x1 : Vec F S1x1 .f32) : Vec F S256x4096 .f32 :=
  View.canon [⟨rq, k1_pay1 (View.ld x1 rs) (View.ld x0 rq)⟩]

/-- The one store covers the block. -/
theorem cover1_2 (p0 : Vec F S256x4096 .f32) (y : S256x4096.Idx) :
    ∃ pc ∈ ([⟨rq, p0⟩] : List (View.Piece (Elt F) S256x4096 .f32)), y ∈ pc.1.set :=
  View.cover_of_tiled [⟨rq, p0⟩] S256x4096.size (by rfl) y

set_option maxHeartbeats 1000000 in
/-- The body on whole staging memrefs: the inputs are handed back as found, the output holds `out1_2` of them. -/
theorem sound_kernel1 (c : Dev nD) (E : Set ℕ) (i : grid1.Coords) (arg1 : Memref sig .tc .vmem S256x4096 .f32) (harg1 : arg1.IsWhole)
    (arg2 : Memref sig .tc .vmem S1x1 .f32) (harg2 : arg2.IsWhole) (arg3 : Memref sig .tc .vmem S256x4096 .f32) (harg3 : arg3.IsWhole)
    (x0 : Vec F S256x4096 .f32) (x1 : Vec F S1x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__quant_kernel i arg1 harg1 arg2 harg2 arg3 harg3) K := by
  simp only [cc1__quant_kernel_eq_skeleton]; unfold cc1__quant_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The region's proof data: the arrays as the region finds them; after the body each input's buffer at its block
    and the output's at `out1_2` of the input blocks; nothing kept between points beyond the scoped rest. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KBNormRuns.lean ====
/-
  The first kernel region (sum over the four shards, RMS normalisation, running maximum of |normed|) at any
  float instance: the branch conditions of its body as conditions on the grid point, where its windows are
  idle, and the body run once per control case. The body always loads the 4x128x4096 input block and the weight
  vector and stores the whole normalised 128x4096 tile; then
    * at the first point it stores the tile's maximum into the one-element scratch,
    * at every later point it stores max(scratch, tile maximum) into the scratch,
    * at the last point it also stores max(scratch, tiny) / 448 into the one-element scale window.
  Each run leaves every buffer it stored into as a list of written pieces; the lists are found by running the body.
-/
import proofs.«140853_j7095285973068_1_alg».proof.Proof.Gen.Kernel.Launch
import proofs.«140853_j7095285973068_1_alg».proof.Proof.Gen.Kernel.Skeleton
import proofs.«140853_j7095285973068_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The branch conditions, as the body computes them from the grid coordinate -/

/-- "this is the first point". -/
abbrev cond0_1 (i : grid0.Coords) : Prop := (Scalar.cmpi .ne (Scalar.extui (Scalar.cmpi .eq (BitVec.ofNat 32 (i 0).val) 0#32)) 0#32) = 1#1
theorem hcond0_1 : ∀ t : Fin cfg0.N, cond0_1 (grid0.coords t) ↔ t.val = 0 :=
  (by decide +kernel : ∀ t : Fin grid0.N, cond0_1 (grid0.coords t) ↔ t.val = 0)

/-- "this is not the first point". -/
abbrev cond0_2 (i : grid0.Coords) : Prop := (Scalar.cmpi .ne (Scalar.extui (Scalar.cmpi .sgt (BitVec.ofNat 32 (i 0).val) 0#32)) 0#32) = 1#1
theorem hcond0_2 : ∀ t : Fin cfg0.N, cond0_2 (grid0.coords t) ↔ t.val ≠ 0 :=
  (by decide +kernel : ∀ t : Fin grid0.N, cond0_2 (grid0.coords t) ↔ t.val ≠ 0)

/-- "this is the last point". -/
abbrev cond0_3 (i : grid0.Coords) : Prop := k0_cond3 i = 1#1
theorem hcond0_3 : ∀ t : Fin cfg0.N, cond0_3 (grid0.coords t) ↔ t.val = 63 :=
  (by decide +kernel : ∀ t : Fin grid0.N, cond0_3 (grid0.coords t) ↔ t.val = 63)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last point the scale window is idle and is not written back. -/
theorem idleAt0_3 : ∀ t : Fin cfg0.N, ¬cond0_3 (grid0.coords t) → cfg0.idle 3 (grid0.coords t) = true := by decide +kernel
theorem noFlush0_3 : ∀ t : Fin cfg0.N, ¬cond0_3 (grid0.coords t) → (cfg0.win 3).flush t = false := by decide +kernel
/-- At the last point it is live. -/
theorem liveAt0_3 : ∀ t : Fin cfg0.N, cond0_3 (grid0.coords t) → cfg0.idle 3 (grid0.coords t) = false := by decide +kernel

/-! ## The memrefs the body is called with -/

abbrev ms0_0 (t : Fin cfg0.N) : Memref sig .tc .vmem S4x128x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x4096 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)
/-- The one-element scratch that carries the running maximum from point to point. -/
abbrev scM0 : Memref sig .tc .vmem S1x1 .f32 := Memref.whole cc0_scratch0
/-- Views through which the contents of the two output windows and of the scratch are stated. -/
abbrev VO0_2 : View sig .tc .vmem S128x4096 .f32 := (Memref.whole cc0_stg2_0 : Memref sig .tc .vmem S128x4096 .f32).view
abbrev VO0_3 : View sig .tc .vmem S1x1 .f32 := (Memref.whole cc0_stg3_0 : Memref sig .tc .vmem S1x1 .f32).view
abbrev VS0 : View sig .tc .vmem S1x1 .f32 := scM0.view

/-! ## The body, case by case -/

set_option maxHeartbeats 2000000 in
/-- FIRST POINT: the tile is stored, the scratch (found at anything) receives the tile's maximum, the scale window
    (at contents `xi3`) is handed back untouched. -/
noncomputable def kernelRun0_A (c : Dev nD) (i : grid0.Coords) (arg1 : Memref sig .tc .vmem S4x128x4096 .f32) (harg1 : arg1.IsWhole) (arg2 : Memref sig .tc .vmem S4096 .f32) (harg2 : arg2.IsWhole) (arg3 : Memref sig .tc .vmem S128x4096 .f32) (harg3 : arg3.IsWhole) (arg4 : Memref sig .tc .vmem S1x1 .f32) (harg4 : arg4.IsWhole) (arg5 : Memref sig .tc .vmem S1x1 .f32) (harg5 : arg5.IsWhole)
    (hc1 : cond0_1 i) (hc2 : ¬cond0_2 i) (hc3 : ¬cond0_3 i) (x0 : Vec F S4x128x4096 .f32) (x1 : Vec F S4096 .f32) :
    Σ' (L2 : List (View.Piece (Elt F) S128x4096 .f32)), { LS0 : List (View.Piece (Elt F) S1x1 .f32) //
      ∀ (xi3 : Vec F S1x1 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ (∃ d, owns (c : Thread nD τ) arg5 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc0__rmsnorm_kernel i arg1 harg1 arg2 harg2 arg3 harg3 arg4 harg4 arg5 harg5) K } := by
  refine ⟨?_, ?_, fun xi3 E K => ?run⟩
  case run =>
    simp only [cc0__rmsnorm_kernel_eq_skeleton]; unfold cc0__rmsnorm_kernel_skel
    unfold owns
    iintro ⟨⟨%f0, %hf0, H0⟩, ⟨%f1, %hf1, H1⟩, ⟨%d2, %f2, -, H2⟩, ⟨%f3, %hf3, H3⟩, ⟨%ds0, %fs0, -, HS0⟩, Hk⟩
    obtain rfl := harg1.eq_unread hf0; obtain rfl := harg2.eq_unread hf1; obtain rfl := harg4.eq_unread hf3
    sl_exec (disch := first | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    iexists _; iexact HS0

set_option maxHeartbeats 2000000 in
/-- A MIDDLE POINT: the tile is stored, the scratch (found at `xs0`) receives max(xs0, tile maximum), the scale
    window is handed back untouched. -/
noncomputable def kernelRun0_B (c : Dev nD) (i : grid0.Coords) (arg1 : Memref sig .tc .vmem S4x128x4096 .f32) (harg1 : arg1.IsWhole) (arg2 : Memref sig .tc .vmem S4096 .f32) (harg2 : arg2.IsWhole) (arg3 : Memref sig .tc .vmem S128x4096 .f32) (harg3 : arg3.IsWhole) (arg4 : Memref sig .tc .vmem S1x1 .f32) (harg4 : arg4.IsWhole) (arg5 : Memref sig .tc .vmem S1x1 .f32) (harg5 : arg5.IsWhole)
    (hc1 : ¬cond0_1 i) (hc2 : cond0_2 i) (hc3 : ¬cond0_3 i) (x0 : Vec F S4x128x4096 .f32) (x1 : Vec F S4096 .f32) (xs0 : Vec F S1x1 .f32) :
    Σ' (L2 : List (View.Piece (Elt F) S128x4096 .f32)), { LS0 : List (View.Piece (Elt F) S1x1 .f32) //
      ∀ (xi3 : Vec F S1x1 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ owns (c : Thread nD τ) arg5 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc0__rmsnorm_kernel i arg1 harg1 arg2 harg2 arg3 harg3 arg4 harg4 arg5 harg5) K } := by
  refine ⟨?_, ?_, fun xi3 E K => ?run⟩
  case run =>
    simp only [cc0__rmsnorm_kernel_eq_skeleton]; unfold cc0__rmsnorm_kernel_skel
    unfold owns
    iintro ⟨⟨%f0, %hf0, H0⟩, ⟨%f1, %hf1, H1⟩, ⟨%d2, %f2, -, H2⟩, ⟨%f3, %hf3, H3⟩, ⟨%fs0, %hfs0, HS0⟩, Hk⟩
    obtain rfl := harg1.eq_unread hf0; obtain rfl := harg2.eq_unread hf1; obtain rfl := harg4.eq_unread hf3; obtain rfl := harg5.eq_unread hfs0
    sl_exec (disch := first | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    iexists _; iexact HS0

set_option maxHeartbeats 2000000 in
/-- THE LAST POINT: as a middle point, and the scale window (found at anything) receives
    max(new scratch, tiny) / 448. -/
noncomputable def kernelRun0_C (c : Dev nD) (i : grid0.Coords) (arg1 : Memref sig .tc .vmem S4x128x4096 .f32) (harg1 : arg1.IsWhole) (arg2 : Memref sig .tc .vmem S4096 .f32) (harg2 : arg2.IsWhole) (arg3 : Memref sig .tc .vmem S128x4096 .f32) (harg3 : arg3.IsWhole) (arg4 : Memref sig .tc .vmem S1x1 .f32) (harg4 : arg4.IsWhole) (arg5 : Memref sig .tc .vmem S1x1 .f32) (harg5 : arg5.IsWhole)
    (hc1 : ¬cond0_1 i) (hc2 : cond0_2 i) (hc3 : cond0_3 i) (x0 : Vec F S4x128x4096 .f32) (x1 : Vec F S4096 .f32) (xs0 : Vec F S1x1 .f32) :
    Σ' (L2 : List (View.Piece (Elt F) S128x4096 .f32)) (L3 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc0__rmsnorm_kernel i arg1 harg1 arg2 harg2 arg3 harg3 arg4 harg4 arg5 harg5) K } := by
  refine ⟨?_, ?_, ?_, fun E K => ?run⟩
  case run =>
    simp only [cc0__rmsnorm_kernel_eq_skeleton]; unfold cc0__rmsnorm_kernel_skel
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg1.eq_unread hf0; obtain rfl := harg2.eq_unread hf1; obtain rfl := harg5.eq_unread hfs0
    sl_exec (disch := first | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; iexact HS0

end Cert.Kernel.Hand

end
-- ==== Proof.KBNormBody.lean ====
/-
  The first kernel region at any float instance, from its case runs to its body obligation: what each case
  leaves in the tile window, the scale window and the scratch (its written pieces read back), what those buffers
  hold after every grid point by recursion on the point (the scratch of a later point is computed from the scratch
  the point before left), the invariant that carries the scratch's contents from point to point, the region's proof
  data and the per-point body obligation.
-/
import proofs.«140853_j7095285973068_1_alg».proof.Proof.KBNormRuns

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The 4x128x4096 input block is in its staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight vector is in its staging buffer at every point: fetched at the first, its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

section Cases
variable (c : Dev nD) (i : grid0.Coords) (arg1 : Memref sig .tc .vmem S4x128x4096 .f32) (harg1 : arg1.IsWhole) (arg2 : Memref sig .tc .vmem S4096 .f32) (harg2 : arg2.IsWhole) (arg3 : Memref sig .tc .vmem S128x4096 .f32) (harg3 : arg3.IsWhole) (arg4 : Memref sig .tc .vmem S1x1 .f32) (harg4 : arg4.IsWhole) (arg5 : Memref sig .tc .vmem S1x1 .f32) (harg5 : arg5.IsWhole)

/-- First point: the tile window. -/
def out0_A_2 (hc1 : cond0_1 i) (hc2 : ¬cond0_2 i) (hc3 : ¬cond0_3 i) (x0 : Vec F S4x128x4096 .f32) (x1 : Vec F S4096 .f32) : Vec F S128x4096 .f32 :=
  VO0_2.read (Elt F) (VO0_2.writes (Elt F) VO0_2.junk (kernelRun0_A c i arg1 harg1 arg2 harg2 arg3 harg3 arg4 harg4 arg5 harg5 hc1 hc2 hc3 x0 x1).1)
theorem cover0_A_2 (hc1 : cond0_1 i) (hc2 : ¬cond0_2 i) (hc3 : ¬cond0_3 i) (x0 : Vec F S4x128x4096 .f32) (x1 : Vec F S4096 .f32) (y : S128x4096.Idx) :
    ∃ pc ∈ (kernelRun0_A c i arg1 harg1 arg2 harg2 arg3 harg3 arg4 harg4 arg5 harg5 hc1 hc2 hc3 x0 x1).1, y ∈ pc.1.set :=
  View.cover_of_tiledL (kernelRun0_A c i arg1 harg1 arg2 harg2 arg3 harg3 arg4 harg4 arg5 harg5 hc1 hc2 hc3 x0 x1).1 S128x4096.size (by sl_kernel_rfl) y
/-- First point: the scratch. -/
def sout0_A (hc1 : cond0_1 i) (hc2 : ¬cond0_2 i) (hc3 : ¬cond0_3 i) (x0 : Vec F S4x128x4096 .f32) (x1 : Vec F S4096 .f32) : Vec F S1x1 .f32 :=
  VS0.read (Elt F) (VS0.writes (Elt F) VS0.junk (kernelRun0_A c i arg1 harg1 arg2 harg2 arg3 harg3 arg4 harg4 arg5 harg5 hc1 hc2 hc3 x0 x1).2.1)
theorem scover0_A (hc1 : cond0_1 i) (hc2 : ¬cond0_2 i) (hc3 : ¬cond0_3 i) (x0 : Vec F S4x128x4096 .f32) (x1 : Vec F S4096 .f32) (y : S1x1.Idx) :
    ∃ pc ∈ (kernelRun0_A c i arg1 harg1 arg2 harg2 arg3 harg3 arg4 harg4 arg5 harg5 hc1 hc2 hc3 x0 x1).2.1, y ∈ pc.1.set :=
  View.cover_of_tiledL (kernelRun0_A c i arg1 harg1 arg2 harg2 arg3 harg3 arg4 harg4 arg5 harg5 hc1 hc2 hc3 x0 x1).2.1 S1x1.size (by sl_kernel_rfl) y

/-- A middle point: the tile window. -/
def out0_B_2 (hc1 : ¬cond0_1 i) (hc2 : cond0_2 i) (hc3 : ¬cond0_3 i) (x0 : Vec F S4x128x4096 .f32) (x1 : Vec F S4096 .f32) (xs0 : Vec F S1x1 .f32) : Vec F S128x4096 .f32 :=
  VO0_2.read (Elt F) (VO0_2.writes (Elt F) VO0_2.junk (kernelRun0_B c i arg1 harg1 arg2 harg2 arg3 harg3 arg4 harg4 arg5 harg5 hc1 hc2 hc3 x0 x1 xs0).1)
theorem cover0_B_2 (hc1 : ¬cond0_1 i) (hc2 : cond0_2 i) (hc3 : ¬cond0_3 i) (x0 : Vec F S4x128x4096 .f32) (x1 : Vec F S4096 .f32) (xs0 : Vec F S1x1 .f32) (y : S128x4096.Idx) :
    ∃ pc ∈ (kernelRun0_B c i arg1 harg1 arg2 harg2 arg3 harg3 arg4 harg4 arg5 harg5 hc1 hc2 hc3 x0 x1 xs0).1, y ∈ pc.1.set :=
  View.cover_of_tiledL (kernelRun0_B c i arg1 harg1 arg2 harg2 arg3 harg3 arg4 harg4 arg5 harg5 hc1 hc2 hc3 x0 x1 xs0).1 S128x4096.size (by sl_kernel_rfl) y
/-- A middle point: the scratch. -/
def sout0_B (hc1 : ¬cond0_1 i) (hc2 : cond0_2 i) (hc3 : ¬cond0_3 i) (x0 : Vec F S4x128x4096 .f32) (x1 : Vec F S4096 .f32) (xs0 : Vec F S1x1 .f32) : Vec F S1x1 .f32 :=
  VS0.read (Elt F) (VS0.writes (Elt F) VS0.junk (kernelRun0_B c i arg1 harg1 arg2 harg2 arg3 harg3 arg4 harg4 arg5 harg5 hc1 hc2 hc3 x0 x1 xs0).2.1)
theorem scover0_B (hc1 : ¬cond0_1 i) (hc2 : cond0_2 i) (hc3 : ¬cond0_3 i) (x0 : Vec F S4x128x4096 .f32) (x1 : Vec F S4096 .f32) (xs0 : Vec F S1x1 .f32) (y : S1x1.Idx) :
    ∃ pc ∈ (kernelRun0_B c i arg1 harg1 arg2 harg2 arg3 harg3 arg4 harg4 arg5 harg5 hc1 hc2 hc3 x0 x1 xs0).2.1, y ∈ pc.1.set :=
  View.cover_of_tiledL (kernelRun0_B c i arg1 harg1 arg2 harg2 arg3 harg3 arg4 harg4 arg5 harg5 hc1 hc2 hc3 x0 x1 xs0).2.1 S1x1.size (by sl_kernel_rfl) y

/-- The last point: the tile window. -/
def out0_C_2 (hc1 : ¬cond0_1 i) (hc2 : cond0_2 i) (hc3 : cond0_3 i) (x0 : Vec F S4x128x4096 .f32) (x1 : Vec F S4096 .f32) (xs0 : Vec F S1x1 .f32) : Vec F S128x4096 .f32 :=
  VO0_2.read (Elt F) (VO0_2.writes (Elt F) VO0_2.junk (kernelRun0_C c i arg1 harg1 arg2 harg2 arg3 harg3 arg4 harg4 arg5 harg5 hc1 hc2 hc3 x0 x1 xs0).1)
theorem cover0_C_2 (hc1 : ¬cond0_1 i) (hc2 : cond0_2 i) (hc3 : cond0_3 i) (x0 : Vec F S4x128x4096 .f32) (x1 : Vec F S4096 .f32) (xs0 : Vec F S1x1 .f32) (y : S128x4096.Idx) :
    ∃ pc ∈ (kernelRun0_C c i arg1 harg1 arg2 harg2 arg3 harg3 arg4 harg4 arg5 harg5 hc1 hc2 hc3 x0 x1 xs0).1, y ∈ pc.1.set :=
  View.cover_of_tiledL (kernelRun0_C c i arg1 harg1 arg2 harg2 arg3 harg3 arg4 harg4 arg5 harg5 hc1 hc2 hc3 x0 x1 xs0).1 S128x4096.size (by sl_kernel_rfl) y
/-- The last point: the scale window. -/
def out0_C_3 (hc1 : ¬cond0_1 i) (hc2 : cond0_2 i) (hc3 : cond0_3 i) (x0 : Vec F S4x128x4096 .f32) (x1 : Vec F S4096 .f32) (xs0 : Vec F S1x1 .f32) : Vec F S1x1 .f32 :=
  VO0_3.read (Elt F) (VO0_3.writes (Elt F) VO0_3.junk (kernelRun0_C c i arg1 harg1 arg2 harg2 arg3 harg3 arg4 harg4 arg5 harg5 hc1 hc2 hc3 x0 x1 xs0).2.1)
theorem cover0_C_3 (hc1 : ¬cond0_1 i) (hc2 : cond0_2 i) (hc3 : cond0_3 i) (x0 : Vec F S4x128x4096 .f32) (x1 : Vec F S4096 .f32) (xs0 : Vec F S1x1 .f32) (y : S1x1.Idx) :
    ∃ pc ∈ (kernelRun0_C c i arg1 harg1 arg2 harg2 arg3 harg3 arg4 harg4 arg5 harg5 hc1 hc2 hc3 x0 x1 xs0).2.1, y ∈ pc.1.set :=
  View.cover_of_tiledL (kernelRun0_C c i arg1 harg1 arg2 harg2 arg3 harg3 arg4 harg4 arg5 harg5 hc1 hc2 hc3 x0 x1 xs0).2.1 S1x1.size (by sl_kernel_rfl) y
/-- The last point: the scratch. -/
def sout0_C (hc1 : ¬cond0_1 i) (hc2 : cond0_2 i) (hc3 : cond0_3 i) (x0 : Vec F S4x128x4096 .f32) (x1 : Vec F S4096 .f32) (xs0 : Vec F S1x1 .f32) : Vec F S1x1 .f32 :=
  VS0.read (Elt F) (VS0.writes (Elt F) VS0.junk (kernelRun0_C c i arg1 harg1 arg2 harg2 arg3 harg3 arg4 harg4 arg5 harg5 hc1 hc2 hc3 x0 x1 xs0).2.2.1)
theorem scover0_C (hc1 : ¬cond0_1 i) (hc2 : cond0_2 i) (hc3 : cond0_3 i) (x0 : Vec F S4x128x4096 .f32) (x1 : Vec F S4096 .f32) (xs0 : Vec F S1x1 .f32) (y : S1x1.Idx) :
    ∃ pc ∈ (kernelRun0_C c i arg1 harg1 arg2 harg2 arg3 harg3 arg4 harg4 arg5 harg5 hc1 hc2 hc3 x0 x1 xs0).2.2.1, y ∈ pc.1.set :=
  View.cover_of_tiledL (kernelRun0_C c i arg1 harg1 arg2 harg2 arg3 harg3 arg4 harg4 arg5 harg5 hc1 hc2 hc3 x0 x1 xs0).2.2.1 S1x1.size (by sl_kernel_rfl) y

end Cases

/-- A value standing for the scale window where it is idle: nothing reads it. -/
def idle3 : Vec F S1x1 .f32 := VO0_3.read (Elt F) (VO0_3.writes (Elt F) VO0_3.junk [])

/-! ## What the buffers hold after each point -/

/-- After the body at position `n`: the tile window, the scale window, the scratch. The first point runs the first
    case; a later point runs the middle or the last case on the scratch the point before left. -/
def outsAt0 (c : Dev nD) : (n : ℕ) → n < cfg0.N → Vec F S128x4096 .f32 × Vec F S1x1 .f32 × Vec F S1x1 .f32
  | 0, hn =>
    (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0_1 ⟨0, hn⟩).mpr rfl) (fun h => (hcond0_2 ⟨0, hn⟩).mp h rfl) (fun h => (fun h' => by (try dsimp only at h'); omega) ((hcond0_3 ⟨0, hn⟩).mp h)) (iblk0 V c 0 ⟨0, hn⟩) (iblk0 V c 1 ⟨0, hn⟩),
     idle3,
     sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0_1 ⟨0, hn⟩).mpr rfl) (fun h => (hcond0_2 ⟨0, hn⟩).mp h rfl) (fun h => (fun h' => by (try dsimp only at h'); omega) ((hcond0_3 ⟨0, hn⟩).mp h)) (iblk0 V c 0 ⟨0, hn⟩) (iblk0 V c 1 ⟨0, hn⟩))
  | n + 1, hn =>
    if h3 : n + 1 = 63 then
      (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => Nat.succ_ne_zero n ((hcond0_1 ⟨n + 1, hn⟩).mp h)) ((hcond0_2 ⟨n + 1, hn⟩).mpr (Nat.succ_ne_zero n)) ((hcond0_3 ⟨n + 1, hn⟩).mpr h3) (iblk0 V c 0 ⟨n + 1, hn⟩) (iblk0 V c 1 ⟨n + 1, hn⟩) (outsAt0 c n (Nat.lt_of_succ_lt hn)).2.2,
       out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => Nat.succ_ne_zero n ((hcond0_1 ⟨n + 1, hn⟩).mp h)) ((hcond0_2 ⟨n + 1, hn⟩).mpr (Nat.succ_ne_zero n)) ((hcond0_3 ⟨n + 1, hn⟩).mpr h3) (iblk0 V c 0 ⟨n + 1, hn⟩) (iblk0 V c 1 ⟨n + 1, hn⟩) (outsAt0 c n (Nat.lt_of_succ_lt hn)).2.2,
       sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => Nat.succ_ne_zero n ((hcond0_1 ⟨n + 1, hn⟩).mp h)) ((hcond0_2 ⟨n + 1, hn⟩).mpr (Nat.succ_ne_zero n)) ((hcond0_3 ⟨n + 1, hn⟩).mpr h3) (iblk0 V c 0 ⟨n + 1, hn⟩) (iblk0 V c 1 ⟨n + 1, hn⟩) (outsAt0 c n (Nat.lt_of_succ_lt hn)).2.2)
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => Nat.succ_ne_zero n ((hcond0_1 ⟨n + 1, hn⟩).mp h)) ((hcond0_2 ⟨n + 1, hn⟩).mpr (Nat.succ_ne_zero n)) (fun h => h3 ((hcond0_3 ⟨n + 1, hn⟩).mp h)) (iblk0 V c 0 ⟨n + 1, hn⟩) (iblk0 V c 1 ⟨n + 1, hn⟩) (outsAt0 c n (Nat.lt_of_succ_lt hn)).2.2,
       idle3,
       sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => Nat.succ_ne_zero n ((hcond0_1 ⟨n + 1, hn⟩).mp h)) ((hcond0_2 ⟨n + 1, hn⟩).mpr (Nat.succ_ne_zero n)) (fun h => h3 ((hcond0_3 ⟨n + 1, hn⟩).mp h)) (iblk0 V c 0 ⟨n + 1, hn⟩) (iblk0 V c 1 ⟨n + 1, hn⟩) (outsAt0 c n (Nat.lt_of_succ_lt hn)).2.2)

/-- At the first point. -/
theorem outsAt0_A (c : Dev nD) (t : Fin cfg0.N) (h0 : t.val = 0) (h3 : ¬t.val = 63) :
    outsAt0 V c t.val t.isLt = (out0_A_2 c (grid0.coords t) (ms0_0 t) (hs0_0 t) (ms0_1 t) (hs0_1 t) (ms0_2 t) (hs0_2 t) (ms0_3 t) (hs0_3 t) scM0 (Memref.isWhole_whole _) ((hcond0_1 t).mpr h0) (fun h => (hcond0_2 t).mp h h0) (fun h => h3 ((hcond0_3 t).mp h)) (iblk0 V c 0 t) (iblk0 V c 1 t), idle3, sout0_A c (grid0.coords t) (ms0_0 t) (hs0_0 t) (ms0_1 t) (hs0_1 t) (ms0_2 t) (hs0_2 t) (ms0_3 t) (hs0_3 t) scM0 (Memref.isWhole_whole _) ((hcond0_1 t).mpr h0) (fun h => (hcond0_2 t).mp h h0) (fun h => h3 ((hcond0_3 t).mp h)) (iblk0 V c 0 t) (iblk0 V c 1 t)) := by
  obtain ⟨n, hn⟩ := t
  cases n with
  | zero => exact rfl
  | succ n => exact absurd h0 (Nat.succ_ne_zero n)

/-- At a middle point, over the scratch the point before left. -/
theorem outsAt0_B (c : Dev nD) (t : Fin cfg0.N) (h0 : ¬t.val = 0) (h3 : ¬t.val = 63) :
    outsAt0 V c t.val t.isLt = (out0_B_2 c (grid0.coords t) (ms0_0 t) (hs0_0 t) (ms0_1 t) (hs0_1 t) (ms0_2 t) (hs0_2 t) (ms0_3 t) (hs0_3 t) scM0 (Memref.isWhole_whole _) (fun h => h0 ((hcond0_1 t).mp h)) ((hcond0_2 t).mpr h0) (fun h => h3 ((hcond0_3 t).mp h)) (iblk0 V c 0 t) (iblk0 V c 1 t) (outsAt0 V c (t.val - 1) (Nat.lt_of_le_of_lt (Nat.sub_le _ _) t.isLt)).2.2, idle3, sout0_B c (grid0.coords t) (ms0_0 t) (hs0_0 t) (ms0_1 t) (hs0_1 t) (ms0_2 t) (hs0_2 t) (ms0_3 t) (hs0_3 t) scM0 (Memref.isWhole_whole _) (fun h => h0 ((hcond0_1 t).mp h)) ((hcond0_2 t).mpr h0) (fun h => h3 ((hcond0_3 t).mp h)) (iblk0 V c 0 t) (iblk0 V c 1 t) (outsAt0 V c (t.val - 1) (Nat.lt_of_le_of_lt (Nat.sub_le _ _) t.isLt)).2.2) := by
  obtain ⟨n, hn⟩ := t
  cases n with
  | zero => exact absurd rfl h0
  | succ n => exact (dif_neg h3).trans rfl

/-- At the last point, over the scratch the point before left. -/
theorem outsAt0_C (c : Dev nD) (t : Fin cfg0.N) (h0 : ¬t.val = 0) (h3 : t.val = 63) :
    outsAt0 V c t.val t.isLt = (out0_C_2 c (grid0.coords t) (ms0_0 t) (hs0_0 t) (ms0_1 t) (hs0_1 t) (ms0_2 t) (hs0_2 t) (ms0_3 t) (hs0_3 t) scM0 (Memref.isWhole_whole _) (fun h => h0 ((hcond0_1 t).mp h)) ((hcond0_2 t).mpr h0) ((hcond0_3 t).mpr h3) (iblk0 V c 0 t) (iblk0 V c 1 t) (outsAt0 V c (t.val - 1) (Nat.lt_of_le_of_lt (Nat.sub_le _ _) t.isLt)).2.2, out0_C_3 c (grid0.coords t) (ms0_0 t) (hs0_0 t) (ms0_1 t) (hs0_1 t) (ms0_2 t) (hs0_2 t) (ms0_3 t) (hs0_3 t) scM0 (Memref.isWhole_whole _) (fun h => h0 ((hcond0_1 t).mp h)) ((hcond0_2 t).mpr h0) ((hcond0_3 t).mpr h3) (iblk0 V c 0 t) (iblk0 V c 1 t) (outsAt0 V c (t.val - 1) (Nat.lt_of_le_of_lt (Nat.sub_le _ _) t.isLt)).2.2, sout0_C c (grid0.coords t) (ms0_0 t) (hs0_0 t) (ms0_1 t) (hs0_1 t) (ms0_2 t) (hs0_2 t) (ms0_3 t) (hs0_3 t) scM0 (Memref.isWhole_whole _) (fun h => h0 ((hcond0_1 t).mp h)) ((hcond0_2 t).mpr h0) ((hcond0_3 t).mpr h3) (iblk0 V c 0 t) (iblk0 V c 1 t) (outsAt0 V c (t.val - 1) (Nat.lt_of_le_of_lt (Nat.sub_le _ _) t.isLt)).2.2) := by
  obtain ⟨n, hn⟩ := t
  cases n with
  | zero => exact absurd rfl h0
  | succ n => exact (dif_pos h3).trans rfl

/-! ## The invariant between points -/

/-- The core's scoped buffers other than this region's staging buffers and its scratch (the second region's staging
    buffers), each whole at some contents. -/
def restS0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- Before the first point the scratch holds anything. -/
theorem PhiA0_eq (c : Dev nD) :
    (Pipeline.ΦA spec0 c : sProp 𝕄)
      = iprop(iprop((∃ d, owns (c : Thread nD τ) scM0 fullShare d) ∗ restS0 c) ∗ (∃ r, prngReg c r)) := by
  unfold Pipeline.ΦA restS0; rw [scopedRest0_eq]; simp only [scM0, owns_whole]; try rfl

/-- The region invariant before position `n`: before the first point every scoped buffer at anything; afterwards the
    scratch at what the point before left in it. -/
def PhiS (c : Dev nD) : (n : ℕ) → n ≤ cfg0.N → sProp 𝕄
  | 0, _ => Pipeline.ΦA spec0 c
  | n + 1, hn => iprop(iprop(owns (c : Thread nD τ) scM0 fullShare ((outsAt0 V c n hn).2.2) ∗ restS0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare ((outsAt0 V c n hn).2.2) ∗ restS0 c) ∗ (∃ r, prngReg c r)) := rfl

theorem PhiS_pos (c : Dev nD) (n : ℕ) (h : n ≤ cfg0.N) (hz : n ≠ 0) :
    PhiS V c n h = iprop(iprop(owns (c : Thread nD τ) scM0 fullShare ((outsAt0 V c (n - 1) (by omega)).2.2) ∗ restS0 c) ∗ (∃ r, prngReg c r)) := by
  cases n with
  | zero => exact absurd rfl hz
  | succ n => rfl

/-! ## The region's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' buffers hold their blocks; the point's position selects the case; the invariant
    hands the body the scratch at what the point before left (at anything at the first point) and takes it back at this
    point's contents; the scale window is handed back as found except at the last point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  have hN : t.val < 64 := lt_of_lt_of_eq t.isLt (show cfg0.N = 64 from N_0)
  by_cases h0 : t.val = 0
  · have h3 : ¬t.val = 63 := by omega
    rw [Dat.leavesExact_idle (dat0 V c) 3 t (idleAt0_3 t (fun h => h3 ((hcond0_3 t).mp h))) (noFlush0_3 t (fun h => h3 ((hcond0_3 t).mp h)))]
    rw [outsAt0_A V c t h0 h3]
    unfold out0_A_2 sout0_A; (try dsimp only)
    rw [PhiS_castSucc V c t, PhiS_zero V c _ _ h0, PhiA0_eq]
    iintro ⟨⟨⟨HS0, HR⟩, Hg⟩, Ho, ⟨%d0, H0⟩, ⟨%d1, H1⟩, ⟨%d2, H2⟩, ⟨%d3, H3⟩⟩
    iapply ((kernelRun0_A c (grid0.coords t) _ _ _ _ _ _ _ _ _ _ ((hcond0_1 t).mpr h0) (fun h => (hcond0_2 t).mp h h0) (fun h => h3 ((hcond0_3 t).mp h)) (iblk0 V c 0 t) (iblk0 V c 1 t)).2.2 _ Set.univ _)
    isplitl [H0]; · iexact H0
    isplitl [H1]; · iexact H1
    isplitl [H2]; · iexists _; iexact H2
    isplitl [H3]; · iexact H3
    isplitl [HS0]; · iexact HS0
    iintro ⟨H0, H1, ⟨%e2, H2⟩, H3, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_A c _ _ _ _ _ _ _ _ _ _ _ _ _ _ _ _)
        iexact HR
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _ _ _ _ _)
    iexists _; iexact H3
  · by_cases h3 : t.val = 63
    · rw [show (dat0 V c).leavesExact 3 t = owns (c : Thread nD τ) (ms0_3 t) fullShare ((dat0 V c).after 3 t) from by
        unfold Dat.leavesExact; rw [liveAt0_3 t ((hcond0_3 t).mpr h3)], after0_3]
      rw [outsAt0_C V c t h0 h3]
      unfold out0_C_2 out0_C_3 sout0_C; (try dsimp only)
      rw [PhiS_castSucc V c t, PhiS_pos V c _ _ h0]
      iintro ⟨⟨⟨HS0, HR⟩, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_1 t).mp h)) ((hcond0_2 t).mpr h0) ((hcond0_3 t).mpr h3) (iblk0 V c 0 t) (iblk0 V c 1 t) _).2.2.2 Set.univ _)
      isplitl [H0]; · iexact H0
      isplitl [H1]; · iexact H1
      isplitl [H2]; · iexists _; iexact H2
      isplitl [H3]; · iexists _; iexact H3
      isplitl [HS0]; · iexact HS0
      iintro ⟨H0, H1, ⟨%e2, H2⟩, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C c _ _ _ _ _ _ _ _ _ _ _ _ _ _ _ _ _)
          iexact HR
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_C_2 c _ _ _ _ _ _ _ _ _ _ _ _ _ _ _ _ _)
      unfold owns; iexists _; isplitr
      swap; · iexact H3
      ipureintro; exact View.read_writes_of_cover _ _ _ _ _ (cover0_C_3 c _ _ _ _ _ _ _ _ _ _ _ _ _ _ _ _ _)
    · rw [Dat.leavesExact_idle (dat0 V c) 3 t (idleAt0_3 t (fun h => h3 ((hcond0_3 t).mp h))) (noFlush0_3 t (fun h => h3 ((hcond0_3 t).mp h)))]
      rw [outsAt0_B V c t h0 h3]
      unfold out0_B_2 sout0_B; (try dsimp only)
      rw [PhiS_castSucc V c t, PhiS_pos V c _ _ h0]
      iintro ⟨⟨⟨HS0, HR⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_1 t).mp h)) ((hcond0_2 t).mpr h0) (fun h => h3 ((hcond0_3 t).mp h)) (iblk0 V c 0 t) (iblk0 V c 1 t) _).2.2 _ Set.univ _)
      isplitl [H0]; · iexact H0
      isplitl [H1]; · iexact H1
      isplitl [H2]; · iexists _; iexact H2
      isplitl [H3]; · iexact H3
      isplitl [HS0]; · iexact HS0
      iintro ⟨H0, H1, ⟨%e2, H2⟩, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B c _ _ _ _ _ _ _ _ _ _ _ _ _ _ _ _ _)
          iexact HR
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_B_2 c _ _ _ _ _ _ _ _ _ _ _ _ _ _ _ _ _)
      iexists _; iexact H3

/-- The body obligation of the region, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point the invariant gives every scoped buffer back at some contents: the scratch's named contents are
    forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 64 := N_0; omega)

end Cert.Kernel.Hand

end
-- ==== Proof.KBRun.lean ====
/-
  The whole program as three segments — the normalisation region, the quantisation region, the host reshape of the
  one-element scale to a scalar — run from the launch to the return. The contents of every unscoped buffer at each
  segment boundary are named (at launch; after the first region, whose two output arrays hold what its write-backs
  leave; after the second; after the reshape), each region is entered from one boundary and left at the next, and the
  run ends with every unscoped buffer at the last boundary's contents. From that: the three argument arrays end as
  launched (no region writes an argument, the reshape writes only its result).
-/
import proofs.«140853_j7095285973068_1_alg».proof.Proof.KBQuantBody
import proofs.«140853_j7095285973068_1_alg».proof.Proof.KBNormBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- At launch. -/
abbrev Wl : Dev nD → Valuation τ sig (Elt F) := fun c b => (s₀ m ρ).mem ((c : Dev nD), b)
abbrev Vl : (c : Dev nD) → (b : Ref sig .tc) → Buf (Elt F) ((c : Thread nD τ).loc b) := fun c b => Wl m ρ c b
/-- After the normalisation region: its arrays at what the pipeline leaves, every other buffer as entered. -/
def Wn (c : Dev nD) : Valuation τ sig (Elt F) :=
  Pipeline.withArrays spec0 c (Wl m ρ c) fun w => (dat0 (Vl m ρ) c).arrAt w cfg0.N
theorem Wn_arr (c : Dev nD) (w : Fin cfg0.W) :
    Wn m ρ c (Proc.devRef .tc (Pipeline.arrRef spec0 w)) = (dat0 (Vl m ρ) c).arrAt w cfg0.N := by
  unfold Wn; exact Pipeline.withArrays_arr spec0 launch0.win.arr_inj c _ _ w
theorem Wn_of_ne (c : Dev nD) (b : Ref sig .tc) (hb : ∀ w, Pipeline.arrRef spec0 w ≠ b) :
    Wn m ρ c (Proc.devRef .tc b) = Wl m ρ c (Proc.devRef .tc b) := by
  unfold Wn; exact Pipeline.withArrays_of_ne spec0 c _ _ b hb
abbrev Vn : (c : Dev nD) → (b : Ref sig .tc) → Buf (Elt F) ((c : Thread nD τ).loc b) := fun c b => Wn m ρ c b
theorem hF0 (c : Dev nD) (w : Fin cfg0.W) : (dat0 (Vl m ρ) c).arrAt w cfg0.N = Vn m ρ c (Pipeline.arrRef spec0 w) :=
  (Wn_arr m ρ c w).symm
theorem hrest0 (c : Dev nD) : ∀ b, b ∉ Finset.univ.image (Pipeline.arrRef spec0) → Vn m ρ c b = Vl m ρ c b :=
  fun b hb => Wn_of_ne m ρ c b fun w e => hb (Finset.mem_image.mpr ⟨w, Finset.mem_univ _, e⟩)

/-- After the quantisation region. -/
def Wq (c : Dev nD) : Valuation τ sig (Elt F) :=
  Pipeline.withArrays spec1 c (Wn m ρ c) fun w => (dat1 (Vn m ρ) c).arrAt w cfg1.N
theorem Wq_arr (c : Dev nD) (w : Fin cfg1.W) :
    Wq m ρ c (Proc.devRef .tc (Pipeline.arrRef spec1 w)) = (dat1 (Vn m ρ) c).arrAt w cfg1.N := by
  unfold Wq; exact Pipeline.withArrays_arr spec1 launch1.win.arr_inj c _ _ w
theorem Wq_of_ne (c : Dev nD) (b : Ref sig .tc) (hb : ∀ w, Pipeline.arrRef spec1 w ≠ b) :
    Wq m ρ c (Proc.devRef .tc b) = Wn m ρ c (Proc.devRef .tc b) := by
  unfold Wq; exact Pipeline.withArrays_of_ne spec1 c _ _ b hb
abbrev Vq : (c : Dev nD) → (b : Ref sig .tc) → Buf (Elt F) ((c : Thread nD τ).loc b) := fun c b => Wq m ρ c b
theorem hF1 (c : Dev nD) (w : Fin cfg1.W) : (dat1 (Vn m ρ) c).arrAt w cfg1.N = Vq m ρ c (Pipeline.arrRef spec1 w) :=
  (Wq_arr m ρ c w).symm
theorem hrest1 (c : Dev nD) : ∀ b, b ∉ Finset.univ.image (Pipeline.arrRef spec1) → Vq m ρ c b = Vn m ρ c b :=
  fun b hb => Wq_of_ne m ρ c b fun w e => hb (Finset.mem_image.mpr ⟨w, Finset.mem_univ _, e⟩)

/-- After the reshape: the end. -/
abbrev We : Dev nD → Valuation τ sig (Elt F) := fun c => StableHlo.after hostOps2 (Wq m ρ c)

/-- The reshape writes only the scalar result. -/
theorem We_of_ne (c : Dev nD) (b : Ref sig .tc) (hb : b ≠ main_v2) :
    We m ρ c (Proc.devRef .tc b) = Wq m ρ c (Proc.devRef .tc b) :=
  StableHlo.after_of_forall_not_mem (b := Proc.devRef .tc b) _ _ (List.forall_iff_forall_mem.mp (by
    simp only [hostOps2, List.Forall, StableHlo.reshape_writes, Finset.mem_singleton]
    exact StableHlo.devRef_ne_of_ne hb))

/-! ### The arguments end as launched -/

theorem We_main_arg0 (c : Dev nD) : We m ρ c (Proc.devRef .tc main_arg0) = m ((c : Thread nD τ).loc main_arg0) :=
  calc We m ρ c (Proc.devRef .tc main_arg0)
    _ = Wq m ρ c (Proc.devRef .tc main_arg0) := We_of_ne m ρ c main_arg0 (by decide)
    _ = Wn m ρ c (Proc.devRef .tc main_arg0) := Wq_of_ne m ρ c main_arg0 (by decide)
    _ = Wl m ρ c (Proc.devRef .tc main_arg0) := (Wn_arr m ρ c 0).trans (((dat0 (Vl m ρ) c).arrAt_in 0 rfl _).trans (A_eq0 (Vl m ρ) c 0))
    _ = m ((c : Thread nD τ).loc main_arg0) := rfl

theorem We_main_arg1 (c : Dev nD) : We m ρ c (Proc.devRef .tc main_arg1) = m ((c : Thread nD τ).loc main_arg1) :=
  calc We m ρ c (Proc.devRef .tc main_arg1)
    _ = Wq m ρ c (Proc.devRef .tc main_arg1) := We_of_ne m ρ c main_arg1 (by decide)
    _ = Wn m ρ c (Proc.devRef .tc main_arg1) := Wq_of_ne m ρ c main_arg1 (by decide)
    _ = Wl m ρ c (Proc.devRef .tc main_arg1) := Wn_of_ne m ρ c main_arg1 (by decide)
    _ = m ((c : Thread nD τ).loc main_arg1) := rfl

theorem We_main_arg2 (c : Dev nD) : We m ρ c (Proc.devRef .tc main_arg2) = m ((c : Thread nD τ).loc main_arg2) :=
  calc We m ρ c (Proc.devRef .tc main_arg2)
    _ = Wq m ρ c (Proc.devRef .tc main_arg2) := We_of_ne m ρ c main_arg2 (by decide)
    _ = Wn m ρ c (Proc.devRef .tc main_arg2) := Wq_of_ne m ρ c main_arg2 (by decide)
    _ = Wl m ρ c (Proc.devRef .tc main_arg2) := (Wn_arr m ρ c 1).trans (((dat0 (Vl m ρ) c).arrAt_in 1 rfl _).trans (A_eq0 (Vl m ρ) c 1))
    _ = m ((c : Thread nD τ).loc main_arg2) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Vl m ρ) c
  | ⟨1, _⟩ => fun c => dat1 (Vn m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing
    nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps2_fresh' : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (We m ρ c) ∗ ∃ r, prngReg c r)

/-! ## The regions as segments -/

/-- After its last point the normalisation region gives back the generator register and every scoped buffer that is no
    staging buffer of its own, each at some contents. -/
theorem hout_reg0 (c : Dev nD) : (dat0 (Vl m ρ) c).Φ (Fin.last cfg0.N)
    ⊢ (iprop((∃ r, prngReg c r) ∗ emp ∗ Pipeline.scopedRest spec0 c) : sProp 𝕄) := by
  have h := hout0 (Vl m ρ) c
  unfold Pipeline.ΦA at h
  exact h.trans (show (iprop(Pipeline.scopedRest spec0 c ∗ ∃ r, prngReg c r) : sProp 𝕄)
      ⊢ (iprop((∃ r, prngReg c r) ∗ emp ∗ Pipeline.scopedRest spec0 c) : sProp 𝕄) from by
    iintro ⟨Hr, Hp⟩
    isplitl [Hp]; · iexact Hp
    isplitr; · iempintro
    iexact Hr)

set_option backward.isDefEq.respectTransparency.types false in
/-- The normalisation region: entered from every unscoped buffer at the launch contents, left at `Wn`. Its arrays are
    split out of the unscoped buffers and put back at the exit contents; the generator register and the scoped rest go
    into the region's invariant (which from the first point on names the scratch's contents) and come back out. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vl m ρ) c).loose
  hwaits := Pipeline.hwaits_of_owed_zero _ _ _ _ L lv 0 fun _ _ => rfl
  pre c := iprop(StableHlo.held (c : Thread nD τ) (Pipeline.ucRefs τ sig) (Wl m ρ c) ∗ R c)
  post c := iprop(StableHlo.held (c : Thread nD τ) (Pipeline.ucRefs τ sig) (Wn m ρ c) ∗ R c)
  X c := iprop(∃ r, prngReg c r)
  Y c := iprop(∃ r, prngReg c r)
  Z c := Pipeline.unscopedRest (Ix := Unit) (Name := ℕ) (U := UR sig nD τ) (Lvl := ℕ) spec0 c (Vl m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vl m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    exact hout_reg0 m ρ c
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vl m ρ c) (Vn m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The quantisation region: entered from `Wn`, left at `Wq`; nothing kept between its points. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vn m ρ) c).loose
  hwaits := Pipeline.hwaits_of_owed_zero _ _ _ _ L lv 1 fun _ _ => rfl
  pre c := iprop(StableHlo.held (c : Thread nD τ) (Pipeline.ucRefs τ sig) (Wn m ρ c) ∗ R c)
  post c := iprop(StableHlo.held (c : Thread nD τ) (Pipeline.ucRefs τ sig) (Wq m ρ c) ∗ R c)
  X c := iprop(∃ r, prngReg c r)
  Y c := iprop(∃ r, prngReg c r)
  Z c := Pipeline.unscopedRest (Ix := Unit) (Name := ℕ) (U := UR sig nD τ) (Lvl := ℕ) spec1 c (Vn m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vn m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vn m ρ c) (Vq m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ),
    .region (reg1 m ρ),
    .host (hseg hostOps2 hostOps2_sub hostOps2_fresh' (Wq m ρ)) ]

theorem main_run (c : Dev nD) : main (F := F) c = Pipeline.Seg.run (segs m ρ) := (main_chain c).trans (by chain_rfl)

set_option backward.isDefEq.respectTransparency.types false in
/-- THE RUN: from any memory with zero counters every weakly fair execution of the program on the TensorCores
    terminates, nothing faulting, and in every final state each unscoped buffer holds the last boundary's contents. -/
theorem run_all : θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = We m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wl m ρ c) ∗ R c)) (Tₙ := Tₙ m ρ)
    (hch := ⟨fun _ => .rfl, fun _ => .rfl, fun _ => .rfl, fun c => by
      show iprop(StableHlo.held (c : Thread nD τ) (Pipeline.ucRefs τ sig) (We m ρ c) ∗ R c)
        ⊢ iprop(Tₙ m ρ c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (Wl m ρ c)
        from Pipeline.unscopedBufs_held c (Wl m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = We m ρ c b)
    (hfin := fun c s' => by
      iintro ⟨⟨Hh, -⟩, HSI⟩
      unfold StableHlo.held
      imodintro
      iapply (pointsTo_read_all (Pipeline.ucRefs τ sig) (fun b => (((c : Thread nD τ)).1, b)) (We m ρ c) s')
      isplitl [Hh] <;> iassumption)
    (hQ := fun s h c b hb => h c _ (mem_uc b hb))

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c main_arg0 (by decide)).trans (We_main_arg0 m ρ c),
     (h c main_arg1 (by decide)).trans (We_main_arg1 m ρ c),
     (h c main_arg2 (by decide)).trans (We_main_arg2 m ρ c)⟩) (run_all m ρ)

end Cert.Kernel.Hand

end
-- ==== Proof.KIQuantBody.lean ====
/-
  The second kernel region (the quantizer) at any float instance: at every grid point the body loads the
  one-element scale block and a 256-row block of the normalised array, and stores ONE whole block
  clip(x / s) into the output window. Stated here: each window's block at a point as the region finds the
  arrays, what the output window's staging buffer holds after the body (its single store read back), the
  body's triple, the region's proof data, and the per-point body obligation.
-/
import proofs.«140853_j7095285973068_1_alg».proof.Proof.Gen.KernelIdeal.Launch
import proofs.«140853_j7095285973068_1_alg».proof.Proof.Gen.KernelIdeal.Skeleton
import proofs.«140853_j7095285973068_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The 256-row input block is in its staging buffer at every point (it is fetched at every point). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The scale block is in its staging buffer at every point: fetched at the first, and its block index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole 256x4096 block and the whole 1x1 block, as rectangles. -/
abbrev rq : Rect S256x4096 := Rect.unit (s := S256x4096) ![0, 0] S256x4096.size inb_S256x4096_S256x4096_0_0
abbrev rs : Rect S1x1 := Rect.unit (s := S1x1) ![0, 0] S1x1.size inb_S1x1_S1x1_0_0

/-- What the body leaves in the output window's staging buffer: its one store, of the clipped quotient of the
    loaded block by the loaded scale. -/
def out1_2 (x0 : Vec F S256x4096 .f32) (x1 : Vec F S1x1 .f32) : Vec F S256x4096 .f32 :=
  View.canon [⟨rq, k1_pay1 (View.ld x1 rs) (View.ld x0 rq)⟩]

/-- The one store covers the block. -/
theorem cover1_2 (p0 : Vec F S256x4096 .f32) (y : S256x4096.Idx) :
    ∃ pc ∈ ([⟨rq, p0⟩] : List (View.Piece (Elt F) S256x4096 .f32)), y ∈ pc.1.set :=
  View.cover_of_tiled [⟨rq, p0⟩] S256x4096.size (by rfl) y

set_option maxHeartbeats 1000000 in
/-- The body on whole staging memrefs: the inputs are handed back as found, the output holds `out1_2` of them. -/
theorem sound_kernel1 (c : Dev nD) (E : Set ℕ) (i : grid1.Coords) (arg1 : Memref sig .tc .vmem S256x4096 .f32) (harg1 : arg1.IsWhole)
    (arg2 : Memref sig .tc .vmem S1x1 .f32) (harg2 : arg2.IsWhole) (arg3 : Memref sig .tc .vmem S256x4096 .f32) (harg3 : arg3.IsWhole)
    (x0 : Vec F S256x4096 .f32) (x1 : Vec F S1x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__quant_kernel i arg1 harg1 arg2 harg2 arg3 harg3) K := by
  simp only [cc1__quant_kernel_eq_skeleton]; unfold cc1__quant_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The region's proof data: the arrays as the region finds them; after the body each input's buffer at its block
    and the output's at `out1_2` of the input blocks; nothing kept between points beyond the scoped rest. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KINormRuns.lean ====
/-
  The first kernel region (sum over the four shards, RMS normalisation, running maximum of |normed|) at any
  float instance: the branch conditions of its body as conditions on the grid point, where its windows are
  idle, and the body run once per control case. The body always loads the 4x128x4096 input block and the weight
  vector and stores the whole normalised 128x4096 tile; then
    * at the first point it stores the tile's maximum into the one-element scratch,
    * at every later point it stores max(scratch, tile maximum) into the scratch,
    * at the last point it also stores max(scratch, tiny) / 448 into the one-element scale window.
  Each run leaves every buffer it stored into as a list of written pieces; the lists are found by running the body.
-/
import proofs.«140853_j7095285973068_1_alg».proof.Proof.Gen.KernelIdeal.Launch
import proofs.«140853_j7095285973068_1_alg».proof.Proof.Gen.KernelIdeal.Skeleton
import proofs.«140853_j7095285973068_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The branch conditions, as the body computes them from the grid coordinate -/

/-- "this is the first point". -/
abbrev cond0_1 (i : grid0.Coords) : Prop := (Scalar.cmpi .ne (Scalar.extui (Scalar.cmpi .eq (BitVec.ofNat 32 (i 0).val) 0#32)) 0#32) = 1#1
theorem hcond0_1 : ∀ t : Fin cfg0.N, cond0_1 (grid0.coords t) ↔ t.val = 0 :=
  (by decide +kernel : ∀ t : Fin grid0.N, cond0_1 (grid0.coords t) ↔ t.val = 0)

/-- "this is not the first point". -/
abbrev cond0_2 (i : grid0.Coords) : Prop := (Scalar.cmpi .ne (Scalar.extui (Scalar.cmpi .sgt (BitVec.ofNat 32 (i 0).val) 0#32)) 0#32) = 1#1
theorem hcond0_2 : ∀ t : Fin cfg0.N, cond0_2 (grid0.coords t) ↔ t.val ≠ 0 :=
  (by decide +kernel : ∀ t : Fin grid0.N, cond0_2 (grid0.coords t) ↔ t.val ≠ 0)

/-- "this is the last point". -/
abbrev cond0_3 (i : grid0.Coords) : Prop := k0_cond3 i = 1#1
theorem hcond0_3 : ∀ t : Fin cfg0.N, cond0_3 (grid0.coords t) ↔ t.val = 63 :=
  (by decide +kernel : ∀ t : Fin grid0.N, cond0_3 (grid0.coords t) ↔ t.val = 63)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last point the scale window is idle and is not written back. -/
theorem idleAt0_3 : ∀ t : Fin cfg0.N, ¬cond0_3 (grid0.coords t) → cfg0.idle 3 (grid0.coords t) = true := by decide +kernel
theorem noFlush0_3 : ∀ t : Fin cfg0.N, ¬cond0_3 (grid0.coords t) → (cfg0.win 3).flush t = false := by decide +kernel
/-- At the last point it is live. -/
theorem liveAt0_3 : ∀ t : Fin cfg0.N, cond0_3 (grid0.coords t) → cfg0.idle 3 (grid0.coords t) = false := by decide +kernel

/-! ## The memrefs the body is called with -/

abbrev ms0_0 (t : Fin cfg0.N) : Memref sig .tc .vmem S4x128x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x4096 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)
/-- The one-element scratch that carries the running maximum from point to point. -/
abbrev scM0 : Memref sig .tc .vmem S1x1 .f32 := Memref.whole cc0_scratch0
/-- Views through which the contents of the two output windows and of the scratch are stated. -/
abbrev VO0_2 : View sig .tc .vmem S128x4096 .f32 := (Memref.whole cc0_stg2_0 : Memref sig .tc .vmem S128x4096 .f32).view
abbrev VO0_3 : View sig .tc .vmem S1x1 .f32 := (Memref.whole cc0_stg3_0 : Memref sig .tc .vmem S1x1 .f32).view
abbrev VS0 : View sig .tc .vmem S1x1 .f32 := scM0.view

/-! ## The body, case by case -/

set_option maxHeartbeats 2000000 in
/-- FIRST POINT: the tile is stored, the scratch (found at anything) receives the tile's maximum, the scale window
    (at contents `xi3`) is handed back untouched. -/
noncomputable def kernelRun0_A (c : Dev nD) (i : grid0.Coords) (arg1 : Memref sig .tc .vmem S4x128x4096 .f32) (harg1 : arg1.IsWhole) (arg2 : Memref sig .tc .vmem S4096 .f32) (harg2 : arg2.IsWhole) (arg3 : Memref sig .tc .vmem S128x4096 .f32) (harg3 : arg3.IsWhole) (arg4 : Memref sig .tc .vmem S1x1 .f32) (harg4 : arg4.IsWhole) (arg5 : Memref sig .tc .vmem S1x1 .f32) (harg5 : arg5.IsWhole)
    (hc1 : cond0_1 i) (hc2 : ¬cond0_2 i) (hc3 : ¬cond0_3 i) (x0 : Vec F S4x128x4096 .f32) (x1 : Vec F S4096 .f32) :
    Σ' (L2 : List (View.Piece (Elt F) S128x4096 .f32)), { LS0 : List (View.Piece (Elt F) S1x1 .f32) //
      ∀ (xi3 : Vec F S1x1 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ (∃ d, owns (c : Thread nD τ) arg5 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc0__rmsnorm_kernel i arg1 harg1 arg2 harg2 arg3 harg3 arg4 harg4 arg5 harg5) K } := by
  refine ⟨?_, ?_, fun xi3 E K => ?run⟩
  case run =>
    simp only [cc0__rmsnorm_kernel_eq_skeleton]; unfold cc0__rmsnorm_kernel_skel
    unfold owns
    iintro ⟨⟨%f0, %hf0, H0⟩, ⟨%f1, %hf1, H1⟩, ⟨%d2, %f2, -, H2⟩, ⟨%f3, %hf3, H3⟩, ⟨%ds0, %fs0, -, HS0⟩, Hk⟩
    obtain rfl := harg1.eq_unread hf0; obtain rfl := harg2.eq_unread hf1; obtain rfl := harg4.eq_unread hf3
    sl_exec (disch := first | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    iexists _; iexact HS0

set_option maxHeartbeats 2000000 in
/-- A MIDDLE POINT: the tile is stored, the scratch (found at `xs0`) receives max(xs0, tile maximum), the scale
    window is handed back untouched. -/
noncomputable def kernelRun0_B (c : Dev nD) (i : grid0.Coords) (arg1 : Memref sig .tc .vmem S4x128x4096 .f32) (harg1 : arg1.IsWhole) (arg2 : Memref sig .tc .vmem S4096 .f32) (harg2 : arg2.IsWhole) (arg3 : Memref sig .tc .vmem S128x4096 .f32) (harg3 : arg3.IsWhole) (arg4 : Memref sig .tc .vmem S1x1 .f32) (harg4 : arg4.IsWhole) (arg5 : Memref sig .tc .vmem S1x1 .f32) (harg5 : arg5.IsWhole)
    (hc1 : ¬cond0_1 i) (hc2 : cond0_2 i) (hc3 : ¬cond0_3 i) (x0 : Vec F S4x128x4096 .f32) (x1 : Vec F S4096 .f32) (xs0 : Vec F S1x1 .f32) :
    Σ' (L2 : List (View.Piece (Elt F) S128x4096 .f32)), { LS0 : List (View.Piece (Elt F) S1x1 .f32) //
      ∀ (xi3 : Vec F S1x1 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ owns (c : Thread nD τ) arg5 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc0__rmsnorm_kernel i arg1 harg1 arg2 harg2 arg3 harg3 arg4 harg4 arg5 harg5) K } := by
  refine ⟨?_, ?_, fun xi3 E K => ?run⟩
  case run =>
    simp only [cc0__rmsnorm_kernel_eq_skeleton]; unfold cc0__rmsnorm_kernel_skel
    unfold owns
    iintro ⟨⟨%f0, %hf0, H0⟩, ⟨%f1, %hf1, H1⟩, ⟨%d2, %f2, -, H2⟩, ⟨%f3, %hf3, H3⟩, ⟨%fs0, %hfs0, HS0⟩, Hk⟩
    obtain rfl := harg1.eq_unread hf0; obtain rfl := harg2.eq_unread hf1; obtain rfl := harg4.eq_unread hf3; obtain rfl := harg5.eq_unread hfs0
    sl_exec (disch := first | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    iexists _; iexact HS0

set_option maxHeartbeats 2000000 in
/-- THE LAST POINT: as a middle point, and the scale window (found at anything) receives
    max(new scratch, tiny) / 448. -/
noncomputable def kernelRun0_C (c : Dev nD) (i : grid0.Coords) (arg1 : Memref sig .tc .vmem S4x128x4096 .f32) (harg1 : arg1.IsWhole) (arg2 : Memref sig .tc .vmem S4096 .f32) (harg2 : arg2.IsWhole) (arg3 : Memref sig .tc .vmem S128x4096 .f32) (harg3 : arg3.IsWhole) (arg4 : Memref sig .tc .vmem S1x1 .f32) (harg4 : arg4.IsWhole) (arg5 : Memref sig .tc .vmem S1x1 .f32) (harg5 : arg5.IsWhole)
    (hc1 : ¬cond0_1 i) (hc2 : cond0_2 i) (hc3 : cond0_3 i) (x0 : Vec F S4x128x4096 .f32) (x1 : Vec F S4096 .f32) (xs0 : Vec F S1x1 .f32) :
    Σ' (L2 : List (View.Piece (Elt F) S128x4096 .f32)) (L3 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc0__rmsnorm_kernel i arg1 harg1 arg2 harg2 arg3 harg3 arg4 harg4 arg5 harg5) K } := by
  refine ⟨?_, ?_, ?_, fun E K => ?run⟩
  case run =>
    simp only [cc0__rmsnorm_kernel_eq_skeleton]; unfold cc0__rmsnorm_kernel_skel
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg1.eq_unread hf0; obtain rfl := harg2.eq_unread hf1; obtain rfl := harg5.eq_unread hfs0
    sl_exec (disch := first | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; iexact HS0

end Cert.KernelIdeal.Hand

end
-- ==== Proof.KINormBody.lean ====
/-
  The first kernel region at any float instance, from its case runs to its body obligation: what each case
  leaves in the tile window, the scale window and the scratch (its written pieces read back), what those buffers
  hold after every grid point by recursion on the point (the scratch of a later point is computed from the scratch
  the point before left), the invariant that carries the scratch's contents from point to point, the region's proof
  data and the per-point body obligation.
-/
import proofs.«140853_j7095285973068_1_alg».proof.Proof.KINormRuns

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The 4x128x4096 input block is in its staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight vector is in its staging buffer at every point: fetched at the first, its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

section Cases
variable (c : Dev nD) (i : grid0.Coords) (arg1 : Memref sig .tc .vmem S4x128x4096 .f32) (harg1 : arg1.IsWhole) (arg2 : Memref sig .tc .vmem S4096 .f32) (harg2 : arg2.IsWhole) (arg3 : Memref sig .tc .vmem S128x4096 .f32) (harg3 : arg3.IsWhole) (arg4 : Memref sig .tc .vmem S1x1 .f32) (harg4 : arg4.IsWhole) (arg5 : Memref sig .tc .vmem S1x1 .f32) (harg5 : arg5.IsWhole)

/-- First point: the tile window. -/
def out0_A_2 (hc1 : cond0_1 i) (hc2 : ¬cond0_2 i) (hc3 : ¬cond0_3 i) (x0 : Vec F S4x128x4096 .f32) (x1 : Vec F S4096 .f32) : Vec F S128x4096 .f32 :=
  VO0_2.read (Elt F) (VO0_2.writes (Elt F) VO0_2.junk (kernelRun0_A c i arg1 harg1 arg2 harg2 arg3 harg3 arg4 harg4 arg5 harg5 hc1 hc2 hc3 x0 x1).1)
theorem cover0_A_2 (hc1 : cond0_1 i) (hc2 : ¬cond0_2 i) (hc3 : ¬cond0_3 i) (x0 : Vec F S4x128x4096 .f32) (x1 : Vec F S4096 .f32) (y : S128x4096.Idx) :
    ∃ pc ∈ (kernelRun0_A c i arg1 harg1 arg2 harg2 arg3 harg3 arg4 harg4 arg5 harg5 hc1 hc2 hc3 x0 x1).1, y ∈ pc.1.set :=
  View.cover_of_tiledL (kernelRun0_A c i arg1 harg1 arg2 harg2 arg3 harg3 arg4 harg4 arg5 harg5 hc1 hc2 hc3 x0 x1).1 S128x4096.size (by sl_kernel_rfl) y
/-- First point: the scratch. -/
def sout0_A (hc1 : cond0_1 i) (hc2 : ¬cond0_2 i) (hc3 : ¬cond0_3 i) (x0 : Vec F S4x128x4096 .f32) (x1 : Vec F S4096 .f32) : Vec F S1x1 .f32 :=
  VS0.read (Elt F) (VS0.writes (Elt F) VS0.junk (kernelRun0_A c i arg1 harg1 arg2 harg2 arg3 harg3 arg4 harg4 arg5 harg5 hc1 hc2 hc3 x0 x1).2.1)
theorem scover0_A (hc1 : cond0_1 i) (hc2 : ¬cond0_2 i) (hc3 : ¬cond0_3 i) (x0 : Vec F S4x128x4096 .f32) (x1 : Vec F S4096 .f32) (y : S1x1.Idx) :
    ∃ pc ∈ (kernelRun0_A c i arg1 harg1 arg2 harg2 arg3 harg3 arg4 harg4 arg5 harg5 hc1 hc2 hc3 x0 x1).2.1, y ∈ pc.1.set :=
  View.cover_of_tiledL (kernelRun0_A c i arg1 harg1 arg2 harg2 arg3 harg3 arg4 harg4 arg5 harg5 hc1 hc2 hc3 x0 x1).2.1 S1x1.size (by sl_kernel_rfl) y

/-- A middle point: the tile window. -/
def out0_B_2 (hc1 : ¬cond0_1 i) (hc2 : cond0_2 i) (hc3 : ¬cond0_3 i) (x0 : Vec F S4x128x4096 .f32) (x1 : Vec F S4096 .f32) (xs0 : Vec F S1x1 .f32) : Vec F S128x4096 .f32 :=
  VO0_2.read (Elt F) (VO0_2.writes (Elt F) VO0_2.junk (kernelRun0_B c i arg1 harg1 arg2 harg2 arg3 harg3 arg4 harg4 arg5 harg5 hc1 hc2 hc3 x0 x1 xs0).1)
theorem cover0_B_2 (hc1 : ¬cond0_1 i) (hc2 : cond0_2 i) (hc3 : ¬cond0_3 i) (x0 : Vec F S4x128x4096 .f32) (x1 : Vec F S4096 .f32) (xs0 : Vec F S1x1 .f32) (y : S128x4096.Idx) :
    ∃ pc ∈ (kernelRun0_B c i arg1 harg1 arg2 harg2 arg3 harg3 arg4 harg4 arg5 harg5 hc1 hc2 hc3 x0 x1 xs0).1, y ∈ pc.1.set :=
  View.cover_of_tiledL (kernelRun0_B c i arg1 harg1 arg2 harg2 arg3 harg3 arg4 harg4 arg5 harg5 hc1 hc2 hc3 x0 x1 xs0).1 S128x4096.size (by sl_kernel_rfl) y
/-- A middle point: the scratch. -/
def sout0_B (hc1 : ¬cond0_1 i) (hc2 : cond0_2 i) (hc3 : ¬cond0_3 i) (x0 : Vec F S4x128x4096 .f32) (x1 : Vec F S4096 .f32) (xs0 : Vec F S1x1 .f32) : Vec F S1x1 .f32 :=
  VS0.read (Elt F) (VS0.writes (Elt F) VS0.junk (kernelRun0_B c i arg1 harg1 arg2 harg2 arg3 harg3 arg4 harg4 arg5 harg5 hc1 hc2 hc3 x0 x1 xs0).2.1)
theorem scover0_B (hc1 : ¬cond0_1 i) (hc2 : cond0_2 i) (hc3 : ¬cond0_3 i) (x0 : Vec F S4x128x4096 .f32) (x1 : Vec F S4096 .f32) (xs0 : Vec F S1x1 .f32) (y : S1x1.Idx) :
    ∃ pc ∈ (kernelRun0_B c i arg1 harg1 arg2 harg2 arg3 harg3 arg4 harg4 arg5 harg5 hc1 hc2 hc3 x0 x1 xs0).2.1, y ∈ pc.1.set :=
  View.cover_of_tiledL (kernelRun0_B c i arg1 harg1 arg2 harg2 arg3 harg3 arg4 harg4 arg5 harg5 hc1 hc2 hc3 x0 x1 xs0).2.1 S1x1.size (by sl_kernel_rfl) y

/-- The last point: the tile window. -/
def out0_C_2 (hc1 : ¬cond0_1 i) (hc2 : cond0_2 i) (hc3 : cond0_3 i) (x0 : Vec F S4x128x4096 .f32) (x1 : Vec F S4096 .f32) (xs0 : Vec F S1x1 .f32) : Vec F S128x4096 .f32 :=
  VO0_2.read (Elt F) (VO0_2.writes (Elt F) VO0_2.junk (kernelRun0_C c i arg1 harg1 arg2 harg2 arg3 harg3 arg4 harg4 arg5 harg5 hc1 hc2 hc3 x0 x1 xs0).1)
theorem cover0_C_2 (hc1 : ¬cond0_1 i) (hc2 : cond0_2 i) (hc3 : cond0_3 i) (x0 : Vec F S4x128x4096 .f32) (x1 : Vec F S4096 .f32) (xs0 : Vec F S1x1 .f32) (y : S128x4096.Idx) :
    ∃ pc ∈ (kernelRun0_C c i arg1 harg1 arg2 harg2 arg3 harg3 arg4 harg4 arg5 harg5 hc1 hc2 hc3 x0 x1 xs0).1, y ∈ pc.1.set :=
  View.cover_of_tiledL (kernelRun0_C c i arg1 harg1 arg2 harg2 arg3 harg3 arg4 harg4 arg5 harg5 hc1 hc2 hc3 x0 x1 xs0).1 S128x4096.size (by sl_kernel_rfl) y
/-- The last point: the scale window. -/
def out0_C_3 (hc1 : ¬cond0_1 i) (hc2 : cond0_2 i) (hc3 : cond0_3 i) (x0 : Vec F S4x128x4096 .f32) (x1 : Vec F S4096 .f32) (xs0 : Vec F S1x1 .f32) : Vec F S1x1 .f32 :=
  VO0_3.read (Elt F) (VO0_3.writes (Elt F) VO0_3.junk (kernelRun0_C c i arg1 harg1 arg2 harg2 arg3 harg3 arg4 harg4 arg5 harg5 hc1 hc2 hc3 x0 x1 xs0).2.1)
theorem cover0_C_3 (hc1 : ¬cond0_1 i) (hc2 : cond0_2 i) (hc3 : cond0_3 i) (x0 : Vec F S4x128x4096 .f32) (x1 : Vec F S4096 .f32) (xs0 : Vec F S1x1 .f32) (y : S1x1.Idx) :
    ∃ pc ∈ (kernelRun0_C c i arg1 harg1 arg2 harg2 arg3 harg3 arg4 harg4 arg5 harg5 hc1 hc2 hc3 x0 x1 xs0).2.1, y ∈ pc.1.set :=
  View.cover_of_tiledL (kernelRun0_C c i arg1 harg1 arg2 harg2 arg3 harg3 arg4 harg4 arg5 harg5 hc1 hc2 hc3 x0 x1 xs0).2.1 S1x1.size (by sl_kernel_rfl) y
/-- The last point: the scratch. -/
def sout0_C (hc1 : ¬cond0_1 i) (hc2 : cond0_2 i) (hc3 : cond0_3 i) (x0 : Vec F S4x128x4096 .f32) (x1 : Vec F S4096 .f32) (xs0 : Vec F S1x1 .f32) : Vec F S1x1 .f32 :=
  VS0.read (Elt F) (VS0.writes (Elt F) VS0.junk (kernelRun0_C c i arg1 harg1 arg2 harg2 arg3 harg3 arg4 harg4 arg5 harg5 hc1 hc2 hc3 x0 x1 xs0).2.2.1)
theorem scover0_C (hc1 : ¬cond0_1 i) (hc2 : cond0_2 i) (hc3 : cond0_3 i) (x0 : Vec F S4x128x4096 .f32) (x1 : Vec F S4096 .f32) (xs0 : Vec F S1x1 .f32) (y : S1x1.Idx) :
    ∃ pc ∈ (kernelRun0_C c i arg1 harg1 arg2 harg2 arg3 harg3 arg4 harg4 arg5 harg5 hc1 hc2 hc3 x0 x1 xs0).2.2.1, y ∈ pc.1.set :=
  View.cover_of_tiledL (kernelRun0_C c i arg1 harg1 arg2 harg2 arg3 harg3 arg4 harg4 arg5 harg5 hc1 hc2 hc3 x0 x1 xs0).2.2.1 S1x1.size (by sl_kernel_rfl) y

end Cases

/-- A value standing for the scale window where it is idle: nothing reads it. -/
def idle3 : Vec F S1x1 .f32 := VO0_3.read (Elt F) (VO0_3.writes (Elt F) VO0_3.junk [])

/-! ## What the buffers hold after each point -/

/-- After the body at position `n`: the tile window, the scale window, the scratch. The first point runs the first
    case; a later point runs the middle or the last case on the scratch the point before left. -/
def outsAt0 (c : Dev nD) : (n : ℕ) → n < cfg0.N → Vec F S128x4096 .f32 × Vec F S1x1 .f32 × Vec F S1x1 .f32
  | 0, hn =>
    (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0_1 ⟨0, hn⟩).mpr rfl) (fun h => (hcond0_2 ⟨0, hn⟩).mp h rfl) (fun h => (fun h' => by (try dsimp only at h'); omega) ((hcond0_3 ⟨0, hn⟩).mp h)) (iblk0 V c 0 ⟨0, hn⟩) (iblk0 V c 1 ⟨0, hn⟩),
     idle3,
     sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0_1 ⟨0, hn⟩).mpr rfl) (fun h => (hcond0_2 ⟨0, hn⟩).mp h rfl) (fun h => (fun h' => by (try dsimp only at h'); omega) ((hcond0_3 ⟨0, hn⟩).mp h)) (iblk0 V c 0 ⟨0, hn⟩) (iblk0 V c 1 ⟨0, hn⟩))
  | n + 1, hn =>
    if h3 : n + 1 = 63 then
      (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => Nat.succ_ne_zero n ((hcond0_1 ⟨n + 1, hn⟩).mp h)) ((hcond0_2 ⟨n + 1, hn⟩).mpr (Nat.succ_ne_zero n)) ((hcond0_3 ⟨n + 1, hn⟩).mpr h3) (iblk0 V c 0 ⟨n + 1, hn⟩) (iblk0 V c 1 ⟨n + 1, hn⟩) (outsAt0 c n (Nat.lt_of_succ_lt hn)).2.2,
       out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => Nat.succ_ne_zero n ((hcond0_1 ⟨n + 1, hn⟩).mp h)) ((hcond0_2 ⟨n + 1, hn⟩).mpr (Nat.succ_ne_zero n)) ((hcond0_3 ⟨n + 1, hn⟩).mpr h3) (iblk0 V c 0 ⟨n + 1, hn⟩) (iblk0 V c 1 ⟨n + 1, hn⟩) (outsAt0 c n (Nat.lt_of_succ_lt hn)).2.2,
       sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => Nat.succ_ne_zero n ((hcond0_1 ⟨n + 1, hn⟩).mp h)) ((hcond0_2 ⟨n + 1, hn⟩).mpr (Nat.succ_ne_zero n)) ((hcond0_3 ⟨n + 1, hn⟩).mpr h3) (iblk0 V c 0 ⟨n + 1, hn⟩) (iblk0 V c 1 ⟨n + 1, hn⟩) (outsAt0 c n (Nat.lt_of_succ_lt hn)).2.2)
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => Nat.succ_ne_zero n ((hcond0_1 ⟨n + 1, hn⟩).mp h)) ((hcond0_2 ⟨n + 1, hn⟩).mpr (Nat.succ_ne_zero n)) (fun h => h3 ((hcond0_3 ⟨n + 1, hn⟩).mp h)) (iblk0 V c 0 ⟨n + 1, hn⟩) (iblk0 V c 1 ⟨n + 1, hn⟩) (outsAt0 c n (Nat.lt_of_succ_lt hn)).2.2,
       idle3,
       sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => Nat.succ_ne_zero n ((hcond0_1 ⟨n + 1, hn⟩).mp h)) ((hcond0_2 ⟨n + 1, hn⟩).mpr (Nat.succ_ne_zero n)) (fun h => h3 ((hcond0_3 ⟨n + 1, hn⟩).mp h)) (iblk0 V c 0 ⟨n + 1, hn⟩) (iblk0 V c 1 ⟨n + 1, hn⟩) (outsAt0 c n (Nat.lt_of_succ_lt hn)).2.2)

/-- At the first point. -/
theorem outsAt0_A (c : Dev nD) (t : Fin cfg0.N) (h0 : t.val = 0) (h3 : ¬t.val = 63) :
    outsAt0 V c t.val t.isLt = (out0_A_2 c (grid0.coords t) (ms0_0 t) (hs0_0 t) (ms0_1 t) (hs0_1 t) (ms0_2 t) (hs0_2 t) (ms0_3 t) (hs0_3 t) scM0 (Memref.isWhole_whole _) ((hcond0_1 t).mpr h0) (fun h => (hcond0_2 t).mp h h0) (fun h => h3 ((hcond0_3 t).mp h)) (iblk0 V c 0 t) (iblk0 V c 1 t), idle3, sout0_A c (grid0.coords t) (ms0_0 t) (hs0_0 t) (ms0_1 t) (hs0_1 t) (ms0_2 t) (hs0_2 t) (ms0_3 t) (hs0_3 t) scM0 (Memref.isWhole_whole _) ((hcond0_1 t).mpr h0) (fun h => (hcond0_2 t).mp h h0) (fun h => h3 ((hcond0_3 t).mp h)) (iblk0 V c 0 t) (iblk0 V c 1 t)) := by
  obtain ⟨n, hn⟩ := t
  cases n with
  | zero => exact rfl
  | succ n => exact absurd h0 (Nat.succ_ne_zero n)

/-- At a middle point, over the scratch the point before left. -/
theorem outsAt0_B (c : Dev nD) (t : Fin cfg0.N) (h0 : ¬t.val = 0) (h3 : ¬t.val = 63) :
    outsAt0 V c t.val t.isLt = (out0_B_2 c (grid0.coords t) (ms0_0 t) (hs0_0 t) (ms0_1 t) (hs0_1 t) (ms0_2 t) (hs0_2 t) (ms0_3 t) (hs0_3 t) scM0 (Memref.isWhole_whole _) (fun h => h0 ((hcond0_1 t).mp h)) ((hcond0_2 t).mpr h0) (fun h => h3 ((hcond0_3 t).mp h)) (iblk0 V c 0 t) (iblk0 V c 1 t) (outsAt0 V c (t.val - 1) (Nat.lt_of_le_of_lt (Nat.sub_le _ _) t.isLt)).2.2, idle3, sout0_B c (grid0.coords t) (ms0_0 t) (hs0_0 t) (ms0_1 t) (hs0_1 t) (ms0_2 t) (hs0_2 t) (ms0_3 t) (hs0_3 t) scM0 (Memref.isWhole_whole _) (fun h => h0 ((hcond0_1 t).mp h)) ((hcond0_2 t).mpr h0) (fun h => h3 ((hcond0_3 t).mp h)) (iblk0 V c 0 t) (iblk0 V c 1 t) (outsAt0 V c (t.val - 1) (Nat.lt_of_le_of_lt (Nat.sub_le _ _) t.isLt)).2.2) := by
  obtain ⟨n, hn⟩ := t
  cases n with
  | zero => exact absurd rfl h0
  | succ n => exact (dif_neg h3).trans rfl

/-- At the last point, over the scratch the point before left. -/
theorem outsAt0_C (c : Dev nD) (t : Fin cfg0.N) (h0 : ¬t.val = 0) (h3 : t.val = 63) :
    outsAt0 V c t.val t.isLt = (out0_C_2 c (grid0.coords t) (ms0_0 t) (hs0_0 t) (ms0_1 t) (hs0_1 t) (ms0_2 t) (hs0_2 t) (ms0_3 t) (hs0_3 t) scM0 (Memref.isWhole_whole _) (fun h => h0 ((hcond0_1 t).mp h)) ((hcond0_2 t).mpr h0) ((hcond0_3 t).mpr h3) (iblk0 V c 0 t) (iblk0 V c 1 t) (outsAt0 V c (t.val - 1) (Nat.lt_of_le_of_lt (Nat.sub_le _ _) t.isLt)).2.2, out0_C_3 c (grid0.coords t) (ms0_0 t) (hs0_0 t) (ms0_1 t) (hs0_1 t) (ms0_2 t) (hs0_2 t) (ms0_3 t) (hs0_3 t) scM0 (Memref.isWhole_whole _) (fun h => h0 ((hcond0_1 t).mp h)) ((hcond0_2 t).mpr h0) ((hcond0_3 t).mpr h3) (iblk0 V c 0 t) (iblk0 V c 1 t) (outsAt0 V c (t.val - 1) (Nat.lt_of_le_of_lt (Nat.sub_le _ _) t.isLt)).2.2, sout0_C c (grid0.coords t) (ms0_0 t) (hs0_0 t) (ms0_1 t) (hs0_1 t) (ms0_2 t) (hs0_2 t) (ms0_3 t) (hs0_3 t) scM0 (Memref.isWhole_whole _) (fun h => h0 ((hcond0_1 t).mp h)) ((hcond0_2 t).mpr h0) ((hcond0_3 t).mpr h3) (iblk0 V c 0 t) (iblk0 V c 1 t) (outsAt0 V c (t.val - 1) (Nat.lt_of_le_of_lt (Nat.sub_le _ _) t.isLt)).2.2) := by
  obtain ⟨n, hn⟩ := t
  cases n with
  | zero => exact absurd rfl h0
  | succ n => exact (dif_pos h3).trans rfl

/-! ## The invariant between points -/

/-- The core's scoped buffers other than this region's staging buffers and its scratch (the second region's staging
    buffers), each whole at some contents. -/
def restS0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- Before the first point the scratch holds anything. -/
theorem PhiA0_eq (c : Dev nD) :
    (Pipeline.ΦA spec0 c : sProp 𝕄)
      = iprop(iprop((∃ d, owns (c : Thread nD τ) scM0 fullShare d) ∗ restS0 c) ∗ (∃ r, prngReg c r)) := by
  unfold Pipeline.ΦA restS0; rw [scopedRest0_eq]; simp only [scM0, owns_whole]; try rfl

/-- The region invariant before position `n`: before the first point every scoped buffer at anything; afterwards the
    scratch at what the point before left in it. -/
def PhiS (c : Dev nD) : (n : ℕ) → n ≤ cfg0.N → sProp 𝕄
  | 0, _ => Pipeline.ΦA spec0 c
  | n + 1, hn => iprop(iprop(owns (c : Thread nD τ) scM0 fullShare ((outsAt0 V c n hn).2.2) ∗ restS0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare ((outsAt0 V c n hn).2.2) ∗ restS0 c) ∗ (∃ r, prngReg c r)) := rfl

theorem PhiS_pos (c : Dev nD) (n : ℕ) (h : n ≤ cfg0.N) (hz : n ≠ 0) :
    PhiS V c n h = iprop(iprop(owns (c : Thread nD τ) scM0 fullShare ((outsAt0 V c (n - 1) (by omega)).2.2) ∗ restS0 c) ∗ (∃ r, prngReg c r)) := by
  cases n with
  | zero => exact absurd rfl hz
  | succ n => rfl

/-! ## The region's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' buffers hold their blocks; the point's position selects the case; the invariant
    hands the body the scratch at what the point before left (at anything at the first point) and takes it back at this
    point's contents; the scale window is handed back as found except at the last point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  have hN : t.val < 64 := lt_of_lt_of_eq t.isLt (show cfg0.N = 64 from N_0)
  by_cases h0 : t.val = 0
  · have h3 : ¬t.val = 63 := by omega
    rw [Dat.leavesExact_idle (dat0 V c) 3 t (idleAt0_3 t (fun h => h3 ((hcond0_3 t).mp h))) (noFlush0_3 t (fun h => h3 ((hcond0_3 t).mp h)))]
    rw [outsAt0_A V c t h0 h3]
    unfold out0_A_2 sout0_A; (try dsimp only)
    rw [PhiS_castSucc V c t, PhiS_zero V c _ _ h0, PhiA0_eq]
    iintro ⟨⟨⟨HS0, HR⟩, Hg⟩, Ho, ⟨%d0, H0⟩, ⟨%d1, H1⟩, ⟨%d2, H2⟩, ⟨%d3, H3⟩⟩
    iapply ((kernelRun0_A c (grid0.coords t) _ _ _ _ _ _ _ _ _ _ ((hcond0_1 t).mpr h0) (fun h => (hcond0_2 t).mp h h0) (fun h => h3 ((hcond0_3 t).mp h)) (iblk0 V c 0 t) (iblk0 V c 1 t)).2.2 _ Set.univ _)
    isplitl [H0]; · iexact H0
    isplitl [H1]; · iexact H1
    isplitl [H2]; · iexists _; iexact H2
    isplitl [H3]; · iexact H3
    isplitl [HS0]; · iexact HS0
    iintro ⟨H0, H1, ⟨%e2, H2⟩, H3, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_A c _ _ _ _ _ _ _ _ _ _ _ _ _ _ _ _)
        iexact HR
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _ _ _ _ _)
    iexists _; iexact H3
  · by_cases h3 : t.val = 63
    · rw [show (dat0 V c).leavesExact 3 t = owns (c : Thread nD τ) (ms0_3 t) fullShare ((dat0 V c).after 3 t) from by
        unfold Dat.leavesExact; rw [liveAt0_3 t ((hcond0_3 t).mpr h3)], after0_3]
      rw [outsAt0_C V c t h0 h3]
      unfold out0_C_2 out0_C_3 sout0_C; (try dsimp only)
      rw [PhiS_castSucc V c t, PhiS_pos V c _ _ h0]
      iintro ⟨⟨⟨HS0, HR⟩, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_1 t).mp h)) ((hcond0_2 t).mpr h0) ((hcond0_3 t).mpr h3) (iblk0 V c 0 t) (iblk0 V c 1 t) _).2.2.2 Set.univ _)
      isplitl [H0]; · iexact H0
      isplitl [H1]; · iexact H1
      isplitl [H2]; · iexists _; iexact H2
      isplitl [H3]; · iexists _; iexact H3
      isplitl [HS0]; · iexact HS0
      iintro ⟨H0, H1, ⟨%e2, H2⟩, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C c _ _ _ _ _ _ _ _ _ _ _ _ _ _ _ _ _)
          iexact HR
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_C_2 c _ _ _ _ _ _ _ _ _ _ _ _ _ _ _ _ _)
      unfold owns; iexists _; isplitr
      swap; · iexact H3
      ipureintro; exact View.read_writes_of_cover _ _ _ _ _ (cover0_C_3 c _ _ _ _ _ _ _ _ _ _ _ _ _ _ _ _ _)
    · rw [Dat.leavesExact_idle (dat0 V c) 3 t (idleAt0_3 t (fun h => h3 ((hcond0_3 t).mp h))) (noFlush0_3 t (fun h => h3 ((hcond0_3 t).mp h)))]
      rw [outsAt0_B V c t h0 h3]
      unfold out0_B_2 sout0_B; (try dsimp only)
      rw [PhiS_castSucc V c t, PhiS_pos V c _ _ h0]
      iintro ⟨⟨⟨HS0, HR⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_1 t).mp h)) ((hcond0_2 t).mpr h0) (fun h => h3 ((hcond0_3 t).mp h)) (iblk0 V c 0 t) (iblk0 V c 1 t) _).2.2 _ Set.univ _)
      isplitl [H0]; · iexact H0
      isplitl [H1]; · iexact H1
      isplitl [H2]; · iexists _; iexact H2
      isplitl [H3]; · iexact H3
      isplitl [HS0]; · iexact HS0
      iintro ⟨H0, H1, ⟨%e2, H2⟩, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B c _ _ _ _ _ _ _ _ _ _ _ _ _ _ _ _ _)
          iexact HR
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_B_2 c _ _ _ _ _ _ _ _ _ _ _ _ _ _ _ _ _)
      iexists _; iexact H3

/-- The body obligation of the region, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point the invariant gives every scoped buffer back at some contents: the scratch's named contents are
    forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 64 := N_0; omega)

end Cert.KernelIdeal.Hand

end
-- ==== Proof.KIRun.lean ====
/-
  The whole program as three segments — the normalisation region, the quantisation region, the host reshape of the
  one-element scale to a scalar — run from the launch to the return. The contents of every unscoped buffer at each
  segment boundary are named (at launch; after the first region, whose two output arrays hold what its write-backs
  leave; after the second; after the reshape), each region is entered from one boundary and left at the next, and the
  run ends with every unscoped buffer at the last boundary's contents. From that: the three argument arrays end as
  launched (no region writes an argument, the reshape writes only its result).
-/
import proofs.«140853_j7095285973068_1_alg».proof.Proof.KIQuantBody
import proofs.«140853_j7095285973068_1_alg».proof.Proof.KINormBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- At launch. -/
abbrev Wl : Dev nD → Valuation τ sig (Elt F) := fun c b => (s₀ m ρ).mem ((c : Dev nD), b)
abbrev Vl : (c : Dev nD) → (b : Ref sig .tc) → Buf (Elt F) ((c : Thread nD τ).loc b) := fun c b => Wl m ρ c b
/-- After the normalisation region: its arrays at what the pipeline leaves, every other buffer as entered. -/
def Wn (c : Dev nD) : Valuation τ sig (Elt F) :=
  Pipeline.withArrays spec0 c (Wl m ρ c) fun w => (dat0 (Vl m ρ) c).arrAt w cfg0.N
theorem Wn_arr (c : Dev nD) (w : Fin cfg0.W) :
    Wn m ρ c (Proc.devRef .tc (Pipeline.arrRef spec0 w)) = (dat0 (Vl m ρ) c).arrAt w cfg0.N := by
  unfold Wn; exact Pipeline.withArrays_arr spec0 launch0.win.arr_inj c _ _ w
theorem Wn_of_ne (c : Dev nD) (b : Ref sig .tc) (hb : ∀ w, Pipeline.arrRef spec0 w ≠ b) :
    Wn m ρ c (Proc.devRef .tc b) = Wl m ρ c (Proc.devRef .tc b) := by
  unfold Wn; exact Pipeline.withArrays_of_ne spec0 c _ _ b hb
abbrev Vn : (c : Dev nD) → (b : Ref sig .tc) → Buf (Elt F) ((c : Thread nD τ).loc b) := fun c b => Wn m ρ c b
theorem hF0 (c : Dev nD) (w : Fin cfg0.W) : (dat0 (Vl m ρ) c).arrAt w cfg0.N = Vn m ρ c (Pipeline.arrRef spec0 w) :=
  (Wn_arr m ρ c w).symm
theorem hrest0 (c : Dev nD) : ∀ b, b ∉ Finset.univ.image (Pipeline.arrRef spec0) → Vn m ρ c b = Vl m ρ c b :=
  fun b hb => Wn_of_ne m ρ c b fun w e => hb (Finset.mem_image.mpr ⟨w, Finset.mem_univ _, e⟩)

/-- After the quantisation region. -/
def Wq (c : Dev nD) : Valuation τ sig (Elt F) :=
  Pipeline.withArrays spec1 c (Wn m ρ c) fun w => (dat1 (Vn m ρ) c).arrAt w cfg1.N
theorem Wq_arr (c : Dev nD) (w : Fin cfg1.W) :
    Wq m ρ c (Proc.devRef .tc (Pipeline.arrRef spec1 w)) = (dat1 (Vn m ρ) c).arrAt w cfg1.N := by
  unfold Wq; exact Pipeline.withArrays_arr spec1 launch1.win.arr_inj c _ _ w
theorem Wq_of_ne (c : Dev nD) (b : Ref sig .tc) (hb : ∀ w, Pipeline.arrRef spec1 w ≠ b) :
    Wq m ρ c (Proc.devRef .tc b) = Wn m ρ c (Proc.devRef .tc b) := by
  unfold Wq; exact Pipeline.withArrays_of_ne spec1 c _ _ b hb
abbrev Vq : (c : Dev nD) → (b : Ref sig .tc) → Buf (Elt F) ((c : Thread nD τ).loc b) := fun c b => Wq m ρ c b
theorem hF1 (c : Dev nD) (w : Fin cfg1.W) : (dat1 (Vn m ρ) c).arrAt w cfg1.N = Vq m ρ c (Pipeline.arrRef spec1 w) :=
  (Wq_arr m ρ c w).symm
theorem hrest1 (c : Dev nD) : ∀ b, b ∉ Finset.univ.image (Pipeline.arrRef spec1) → Vq m ρ c b = Vn m ρ c b :=
  fun b hb => Wq_of_ne m ρ c b fun w e => hb (Finset.mem_image.mpr ⟨w, Finset.mem_univ _, e⟩)

/-- After the reshape: the end. -/
abbrev We : Dev nD → Valuation τ sig (Elt F) := fun c => StableHlo.after hostOps2 (Wq m ρ c)

/-- The reshape writes only the scalar result. -/
theorem We_of_ne (c : Dev nD) (b : Ref sig .tc) (hb : b ≠ main_v2) :
    We m ρ c (Proc.devRef .tc b) = Wq m ρ c (Proc.devRef .tc b) :=
  StableHlo.after_of_forall_not_mem (b := Proc.devRef .tc b) _ _ (List.forall_iff_forall_mem.mp (by
    simp only [hostOps2, List.Forall, StableHlo.reshape_writes, Finset.mem_singleton]
    exact StableHlo.devRef_ne_of_ne hb))

/-! ### The arguments end as launched -/

theorem We_main_arg0 (c : Dev nD) : We m ρ c (Proc.devRef .tc main_arg0) = m ((c : Thread nD τ).loc main_arg0) :=
  calc We m ρ c (Proc.devRef .tc main_arg0)
    _ = Wq m ρ c (Proc.devRef .tc main_arg0) := We_of_ne m ρ c main_arg0 (by decide)
    _ = Wn m ρ c (Proc.devRef .tc main_arg0) := Wq_of_ne m ρ c main_arg0 (by decide)
    _ = Wl m ρ c (Proc.devRef .tc main_arg0) := (Wn_arr m ρ c 0).trans (((dat0 (Vl m ρ) c).arrAt_in 0 rfl _).trans (A_eq0 (Vl m ρ) c 0))
    _ = m ((c : Thread nD τ).loc main_arg0) := rfl

theorem We_main_arg1 (c : Dev nD) : We m ρ c (Proc.devRef .tc main_arg1) = m ((c : Thread nD τ).loc main_arg1) :=
  calc We m ρ c (Proc.devRef .tc main_arg1)
    _ = Wq m ρ c (Proc.devRef .tc main_arg1) := We_of_ne m ρ c main_arg1 (by decide)
    _ = Wn m ρ c (Proc.devRef .tc main_arg1) := Wq_of_ne m ρ c main_arg1 (by decide)
    _ = Wl m ρ c (Proc.devRef .tc main_arg1) := Wn_of_ne m ρ c main_arg1 (by decide)
    _ = m ((c : Thread nD τ).loc main_arg1) := rfl

theorem We_main_arg2 (c : Dev nD) : We m ρ c (Proc.devRef .tc main_arg2) = m ((c : Thread nD τ).loc main_arg2) :=
  calc We m ρ c (Proc.devRef .tc main_arg2)
    _ = Wq m ρ c (Proc.devRef .tc main_arg2) := We_of_ne m ρ c main_arg2 (by decide)
    _ = Wn m ρ c (Proc.devRef .tc main_arg2) := Wq_of_ne m ρ c main_arg2 (by decide)
    _ = Wl m ρ c (Proc.devRef .tc main_arg2) := (Wn_arr m ρ c 1).trans (((dat0 (Vl m ρ) c).arrAt_in 1 rfl _).trans (A_eq0 (Vl m ρ) c 1))
    _ = m ((c : Thread nD τ).loc main_arg2) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Vl m ρ) c
  | ⟨1, _⟩ => fun c => dat1 (Vn m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing
    nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps2_fresh' : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (We m ρ c) ∗ ∃ r, prngReg c r)

/-! ## The regions as segments -/

/-- After its last point the normalisation region gives back the generator register and every scoped buffer that is no
    staging buffer of its own, each at some contents. -/
theorem hout_reg0 (c : Dev nD) : (dat0 (Vl m ρ) c).Φ (Fin.last cfg0.N)
    ⊢ (iprop((∃ r, prngReg c r) ∗ emp ∗ Pipeline.scopedRest spec0 c) : sProp 𝕄) := by
  have h := hout0 (Vl m ρ) c
  unfold Pipeline.ΦA at h
  exact h.trans (show (iprop(Pipeline.scopedRest spec0 c ∗ ∃ r, prngReg c r) : sProp 𝕄)
      ⊢ (iprop((∃ r, prngReg c r) ∗ emp ∗ Pipeline.scopedRest spec0 c) : sProp 𝕄) from by
    iintro ⟨Hr, Hp⟩
    isplitl [Hp]; · iexact Hp
    isplitr; · iempintro
    iexact Hr)

set_option backward.isDefEq.respectTransparency.types false in
/-- The normalisation region: entered from every unscoped buffer at the launch contents, left at `Wn`. Its arrays are
    split out of the unscoped buffers and put back at the exit contents; the generator register and the scoped rest go
    into the region's invariant (which from the first point on names the scratch's contents) and come back out. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vl m ρ) c).loose
  hwaits := Pipeline.hwaits_of_owed_zero _ _ _ _ L lv 0 fun _ _ => rfl
  pre c := iprop(StableHlo.held (c : Thread nD τ) (Pipeline.ucRefs τ sig) (Wl m ρ c) ∗ R c)
  post c := iprop(StableHlo.held (c : Thread nD τ) (Pipeline.ucRefs τ sig) (Wn m ρ c) ∗ R c)
  X c := iprop(∃ r, prngReg c r)
  Y c := iprop(∃ r, prngReg c r)
  Z c := Pipeline.unscopedRest (Ix := Unit) (Name := ℕ) (U := UR sig nD τ) (Lvl := ℕ) spec0 c (Vl m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vl m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    exact hout_reg0 m ρ c
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vl m ρ c) (Vn m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The quantisation region: entered from `Wn`, left at `Wq`; nothing kept between its points. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vn m ρ) c).loose
  hwaits := Pipeline.hwaits_of_owed_zero _ _ _ _ L lv 1 fun _ _ => rfl
  pre c := iprop(StableHlo.held (c : Thread nD τ) (Pipeline.ucRefs τ sig) (Wn m ρ c) ∗ R c)
  post c := iprop(StableHlo.held (c : Thread nD τ) (Pipeline.ucRefs τ sig) (Wq m ρ c) ∗ R c)
  X c := iprop(∃ r, prngReg c r)
  Y c := iprop(∃ r, prngReg c r)
  Z c := Pipeline.unscopedRest (Ix := Unit) (Name := ℕ) (U := UR sig nD τ) (Lvl := ℕ) spec1 c (Vn m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vn m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vn m ρ c) (Vq m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ),
    .region (reg1 m ρ),
    .host (hseg hostOps2 hostOps2_sub hostOps2_fresh' (Wq m ρ)) ]

theorem main_run (c : Dev nD) : main (F := F) c = Pipeline.Seg.run (segs m ρ) := (main_chain c).trans (by chain_rfl)

set_option backward.isDefEq.respectTransparency.types false in
/-- THE RUN: from any memory with zero counters every weakly fair execution of the program on the TensorCores
    terminates, nothing faulting, and in every final state each unscoped buffer holds the last boundary's contents. -/
theorem run_all : θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = We m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wl m ρ c) ∗ R c)) (Tₙ := Tₙ m ρ)
    (hch := ⟨fun _ => .rfl, fun _ => .rfl, fun _ => .rfl, fun c => by
      show iprop(StableHlo.held (c : Thread nD τ) (Pipeline.ucRefs τ sig) (We m ρ c) ∗ R c)
        ⊢ iprop(Tₙ m ρ c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (Wl m ρ c)
        from Pipeline.unscopedBufs_held c (Wl m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = We m ρ c b)
    (hfin := fun c s' => by
      iintro ⟨⟨Hh, -⟩, HSI⟩
      unfold StableHlo.held
      imodintro
      iapply (pointsTo_read_all (Pipeline.ucRefs τ sig) (fun b => (((c : Thread nD τ)).1, b)) (We m ρ c) s')
      isplitl [Hh] <;> iassumption)
    (hQ := fun s h c b hb => h c _ (mem_uc b hb))

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c main_arg0 (by decide)).trans (We_main_arg0 m ρ c),
     (h c main_arg1 (by decide)).trans (We_main_arg1 m ρ c),
     (h c main_arg2 (by decide)).trans (We_main_arg2 m ρ c)⟩) (run_all m ρ)

end Cert.KernelIdeal.Hand

end
-- ==== Proof.KINormValue.lean ====
/-
  What the normalisation region leaves, read back as values (at any float instance). Each control case's written pieces
  are the body's payloads over the blocks it loaded: the tile window always receives the normalised tile of the point's
  input block; the scratch receives the tile's maximum at the first point and max(previous scratch, tile maximum)
  afterwards; the scale window receives, at the last point, max(final scratch, tiny) / 448. So after point n the scratch
  holds the running maximum over the tiles 0..n (a recursion on the point, not an enumeration of the grid), every write-back
  of the tile window is the normalised tile, and the one write-back of the scale window comes from the last running
  maximum.
-/
import proofs.«140853_j7095285973068_1_alg».proof.Proof.KINormBody
import Idealize.ShloMosaic.Lib.Pipeline.Value

set_option maxRecDepth 16384

noncomputable section

namespace Cert.KernelIdeal.Hand

open Idealize.ShloMosaic Idealize.ShloMosaic.TcCoe Idealize.ShloMosaic.Tactic Idealize.SL.Sem
open Idealize.ShloMosaic.Pipeline (Dat)
open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

section Pieces
variable (c : Dev nD) (i : grid0.Coords) (arg1 : Memref sig .tc .vmem S4x128x4096 .f32) (harg1 : arg1.IsWhole) (arg2 : Memref sig .tc .vmem S4096 .f32) (harg2 : arg2.IsWhole) (arg3 : Memref sig .tc .vmem S128x4096 .f32) (harg3 : arg3.IsWhole) (arg4 : Memref sig .tc .vmem S1x1 .f32) (harg4 : arg4.IsWhole) (arg5 : Memref sig .tc .vmem S1x1 .f32) (harg5 : arg5.IsWhole)

/-- First point: the tile window holds the normalised tile. -/
theorem out_A_2 (hc1 : cond0_1 i) (hc2 : ¬cond0_2 i) (hc3 : ¬cond0_3 i) (x0 : Vec F S4x128x4096 .f32) (x1 : Vec F S4096 .f32) :
    out0_A_2 c i arg1 harg1 arg2 harg2 arg3 harg3 arg4 harg4 arg5 harg5 hc1 hc2 hc3 x0 x1 = k0_pay1 x0 x1 := by
  unfold out0_A_2
  rw [View.read_writes_eq_canon _ _ _ (cover0_A_2 c i arg1 harg1 arg2 harg2 arg3 harg3 arg4 harg4 arg5 harg5 hc1 hc2 hc3 x0 x1)]
  unfold kernelRun0_A
  dsimp only
  rw [View.canon_unit_zero hz2]
  simp only [View.readAt_eq_ld, harg1.read_unread, harg2.read_unread, View.ld_unit_zero (S := S4x128x4096) hz3, View.ld_unit_zero (S := S4096) hz1]

/-- First point: the scratch holds the tile's maximum. -/
theorem sout_A (hc1 : cond0_1 i) (hc2 : ¬cond0_2 i) (hc3 : ¬cond0_3 i) (x0 : Vec F S4x128x4096 .f32) (x1 : Vec F S4096 .f32) :
    sout0_A c i arg1 harg1 arg2 harg2 arg3 harg3 arg4 harg4 arg5 harg5 hc1 hc2 hc3 x0 x1 = k0_pay3 x0 x1 := by
  unfold sout0_A
  rw [View.read_writes_eq_canon _ _ _ (scover0_A c i arg1 harg1 arg2 harg2 arg3 harg3 arg4 harg4 arg5 harg5 hc1 hc2 hc3 x0 x1)]
  unfold kernelRun0_A
  dsimp only
  rw [View.canon_unit_zero hz2]
  simp only [View.readAt_eq_ld, harg1.read_unread, harg2.read_unread, View.ld_unit_zero (S := S4x128x4096) hz3, View.ld_unit_zero (S := S4096) hz1]

/-- A middle point: the tile window. -/
theorem out_B_2 (hc1 : ¬cond0_1 i) (hc2 : cond0_2 i) (hc3 : ¬cond0_3 i) (x0 : Vec F S4x128x4096 .f32) (x1 : Vec F S4096 .f32) (xs0 : Vec F S1x1 .f32) :
    out0_B_2 c i arg1 harg1 arg2 harg2 arg3 harg3 arg4 harg4 arg5 harg5 hc1 hc2 hc3 x0 x1 xs0 = k0_pay1 x0 x1 := by
  unfold out0_B_2
  rw [View.read_writes_eq_canon _ _ _ (cover0_B_2 c i arg1 harg1 arg2 harg2 arg3 harg3 arg4 harg4 arg5 harg5 hc1 hc2 hc3 x0 x1 xs0)]
  unfold kernelRun0_B
  dsimp only
  rw [View.canon_unit_zero hz2]
  simp only [View.readAt_eq_ld, harg1.read_unread, harg2.read_unread, View.ld_unit_zero (S := S4x128x4096) hz3, View.ld_unit_zero (S := S4096) hz1]

/-- A middle point: the scratch holds max(previous scratch, tile maximum). -/
theorem sout_B (hc1 : ¬cond0_1 i) (hc2 : cond0_2 i) (hc3 : ¬cond0_3 i) (x0 : Vec F S4x128x4096 .f32) (x1 : Vec F S4096 .f32) (xs0 : Vec F S1x1 .f32) :
    sout0_B c i arg1 harg1 arg2 harg2 arg3 harg3 arg4 harg4 arg5 harg5 hc1 hc2 hc3 x0 x1 xs0 = k0_pay4 x0 x1 xs0 := by
  unfold sout0_B
  rw [View.read_writes_eq_canon _ _ _ (scover0_B c i arg1 harg1 arg2 harg2 arg3 harg3 arg4 harg4 arg5 harg5 hc1 hc2 hc3 x0 x1 xs0)]
  unfold kernelRun0_B
  dsimp only
  rw [View.canon_unit_zero hz2]
  simp only [View.readAt_eq_ld, harg1.read_unread, harg2.read_unread, harg5.read_unread, View.ld_unit_zero (S := S4x128x4096) hz3, View.ld_unit_zero (S := S4096) hz1, View.ld_unit_zero (S := S1x1) hz2]

/-- The last point: the tile window. -/
theorem out_C_2 (hc1 : ¬cond0_1 i) (hc2 : cond0_2 i) (hc3 : cond0_3 i) (x0 : Vec F S4x128x4096 .f32) (x1 : Vec F S4096 .f32) (xs0 : Vec F S1x1 .f32) :
    out0_C_2 c i arg1 harg1 arg2 harg2 arg3 harg3 arg4 harg4 arg5 harg5 hc1 hc2 hc3 x0 x1 xs0 = k0_pay1 x0 x1 := by
  unfold out0_C_2
  rw [View.read_writes_eq_canon _ _ _ (cover0_C_2 c i arg1 harg1 arg2 harg2 arg3 harg3 arg4 harg4 arg5 harg5 hc1 hc2 hc3 x0 x1 xs0)]
  unfold kernelRun0_C
  dsimp only
  rw [View.canon_unit_zero hz2]
  simp only [View.readAt_eq_ld, harg1.read_unread, harg2.read_unread, View.ld_unit_zero (S := S4x128x4096) hz3, View.ld_unit_zero (S := S4096) hz1]

/-- The last point: the scratch. -/
theorem sout_C (hc1 : ¬cond0_1 i) (hc2 : cond0_2 i) (hc3 : cond0_3 i) (x0 : Vec F S4x128x4096 .f32) (x1 : Vec F S4096 .f32) (xs0 : Vec F S1x1 .f32) :
    sout0_C c i arg1 harg1 arg2 harg2 arg3 harg3 arg4 harg4 arg5 harg5 hc1 hc2 hc3 x0 x1 xs0 = k0_pay4 x0 x1 xs0 := by
  unfold sout0_C
  rw [View.read_writes_eq_canon _ _ _ (scover0_C c i arg1 harg1 arg2 harg2 arg3 harg3 arg4 harg4 arg5 harg5 hc1 hc2 hc3 x0 x1 xs0)]
  unfold kernelRun0_C
  dsimp only
  sl_unfold_words
  rw [View.canon_unit_zero hz2]
  simp only [View.readAt_eq_ld, harg1.read_unread, harg2.read_unread, harg5.read_unread, View.ld_unit_zero (S := S4x128x4096) hz3, View.ld_unit_zero (S := S4096) hz1, View.ld_unit_zero (S := S1x1) hz2]

/-- The last point: the scale window holds max(new scratch, tiny) / 448 — the body reads the scratch back after
    storing into it. -/
theorem out_C_3 (hc1 : ¬cond0_1 i) (hc2 : cond0_2 i) (hc3 : cond0_3 i) (x0 : Vec F S4x128x4096 .f32) (x1 : Vec F S4096 .f32) (xs0 : Vec F S1x1 .f32) :
    out0_C_3 c i arg1 harg1 arg2 harg2 arg3 harg3 arg4 harg4 arg5 harg5 hc1 hc2 hc3 x0 x1 xs0 = k0_pay5 (k0_pay4 x0 x1 xs0) := by
  unfold out0_C_3
  rw [View.read_writes_eq_canon _ _ _ (cover0_C_3 c i arg1 harg1 arg2 harg2 arg3 harg3 arg4 harg4 arg5 harg5 hc1 hc2 hc3 x0 x1 xs0)]
  unfold kernelRun0_C
  dsimp only
  sl_unfold_words
  rw [View.canon_unit_zero hz2, View.readCov_unit_zero (S := S1x1) _ hz2]
  simp only [View.readAt_eq_ld, harg1.read_unread, harg2.read_unread, harg5.read_unread, View.ld_unit_zero (S := S4x128x4096) hz3, View.ld_unit_zero (S := S4096) hz1, View.ld_unit_zero (S := S1x1) hz2]

end Pieces

variable (V : (c : Dev nD) → (b : Ref sig .tc) → Buf (Elt F) ((c : Thread nD τ).loc b))

/-- The running maximum after point `n`: the first tile's maximum, then max(so far, next tile's maximum). -/
def accAt (c : Dev nD) : (n : ℕ) → n < cfg0.N → Vec F S1x1 .f32
  | 0, h => k0_pay3 (iblk0 V c 0 ⟨0, h⟩) (iblk0 V c 1 ⟨0, h⟩)
  | n + 1, h => k0_pay4 (iblk0 V c 0 ⟨n + 1, h⟩) (iblk0 V c 1 ⟨n + 1, h⟩) (accAt c n (Nat.lt_of_succ_lt h))

/-- The scratch after point `n` is the running maximum. -/
theorem outsAt_scratch (c : Dev nD) : ∀ (n : ℕ) (h : n < cfg0.N), (outsAt0 V c n h).2.2 = accAt V c n h
  | 0, h => by
    have h3 : ¬(⟨0, h⟩ : Fin cfg0.N).val = 63 := by dsimp only; omega
    rw [outsAt0_A V c ⟨0, h⟩ rfl h3]
    dsimp only
    rw [sout_A]
    rfl
  | n + 1, h => by
    have h0 : ¬(⟨n + 1, h⟩ : Fin cfg0.N).val = 0 := by dsimp only; omega
    have ih := outsAt_scratch c n (Nat.lt_of_succ_lt h)
    by_cases h3 : (⟨n + 1, h⟩ : Fin cfg0.N).val = 63
    · rw [outsAt0_C V c ⟨n + 1, h⟩ h0 h3]
      dsimp only
      rw [sout_C]
      show k0_pay4 _ _ (outsAt0 V c n _).2.2 = k0_pay4 _ _ (accAt V c n _)
      rw [ih]
    · rw [outsAt0_B V c ⟨n + 1, h⟩ h0 h3]
      dsimp only
      rw [sout_B]
      show k0_pay4 _ _ (outsAt0 V c n _).2.2 = k0_pay4 _ _ (accAt V c n _)
      rw [ih]

/-- The tile window after any point is the normalised tile of the point's input block. -/
theorem outsAt_tile (c : Dev nD) (t : Fin cfg0.N) : (outsAt0 V c t.val t.isLt).1 = k0_pay1 (iblk0 V c 0 t) (iblk0 V c 1 t) := by
  have hN : t.val < 64 := lt_of_lt_of_eq t.isLt (show cfg0.N = 64 from N_0)
  by_cases h0 : t.val = 0
  · have h3 : ¬t.val = 63 := by omega
    rw [outsAt0_A V c t h0 h3]; dsimp only; rw [out_A_2]
  · by_cases h3 : t.val = 63
    · rw [outsAt0_C V c t h0 h3]; dsimp only; rw [out_C_2]
    · rw [outsAt0_B V c t h0 h3]; dsimp only; rw [out_B_2]

/-- The scale window after the last point is max(final running maximum, tiny) / 448. -/
theorem outsAt_scale (c : Dev nD) (t : Fin cfg0.N) (h3 : t.val = 63) :
    (outsAt0 V c t.val t.isLt).2.1 = k0_pay5 (accAt V c t.val t.isLt) := by
  have h0 : ¬t.val = 0 := by omega
  rw [outsAt0_C V c t h0 h3]
  dsimp only
  rw [out_C_3]
  obtain ⟨n, hn⟩ := t
  cases n with
  | zero => exact absurd rfl h0
  | succ n =>
    show k0_pay5 (k0_pay4 _ _ (outsAt0 V c n _).2.2) = k0_pay5 (k0_pay4 _ _ (accAt V c n _))
    rw [outsAt_scratch V c n]

end Cert.KernelIdeal.Hand

end
-- ==== Proof.LibKeepdimsLayout.lean ====
/-
  Keepdims layouts read at an index, for arbitrary extents: a vector cast to a one-column matrix, a one-column matrix
  broadcast along the columns, and a one-element vector cast to a one-by-one matrix. No program is imported.
-/
import Idealize.ShloMosaic.Lib.Pipeline.Value
import Idealize.ShloMosaic.Lib.ValueIdx

namespace Idealize.ShloMosaic.KeepdimsLayout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.KeepdimsLayout
-- ==== Proof.RmsQuantSpec.lean ====
/-
  The specification, on the extended reals, as functions of the two argument arrays (hs : [4, 8192, 4096], w : [4096]):
      x(r, q)      = Σ_{j<4} hs(j, r, q)                                  (the all-reduce over the four shards)
      normed(r, q) = x(r, q) · rsqrt( (Σ_k x(r, k)²) / 4096 + ε ) · w(q)   (RMS normalisation)
      amax         = the maximum over every (r, q) of |normed(r, q)|, from −∞
      scale        = max(amax, tiny) / 448
      q(r, q)      = min(448, max(−448, normed(r, q) / scale)).
  The constants are kept as the words both programs print (they are never evaluated). A maximum is handled through
  its universal property: a value that is below a bound exactly when −∞ and every |normed(r, q)| are IS amax.
  No program is imported.
-/
import Idealize.ShloMosaic.PureOps.Ideal
import Idealize.ShloMosaic.PureOps.Ideal.Laws
import Idealize.ShloMosaic.Lib.ValueIdx

noncomputable section

namespace Cert.RmsQuantSpec

open Idealize.ShloMosaic Idealize.ShloMosaic.ValueIdx

abbrev SH : Shape := ⟨3, ![4, 8192, 4096]⟩
abbrev SN : Shape := ⟨2, ![8192, 4096]⟩
abbrev SW : Shape := ⟨1, ![4096]⟩

abbrev cN : EReal := Ideal.ofBits .f32 0x45800000#32
abbrev cEps : EReal := Ideal.ofBits .f32 0x358637BD#32
abbrev cBot : EReal := Ideal.ofBits .f32 0xFF800000#32
abbrev cTiny : EReal := Ideal.ofBits .f32 0x2B8CBCCC#32
abbrev cHi : EReal := Ideal.ofBits .f32 0x43E00000#32
abbrev cLo : EReal := Ideal.ofBits .f32 0xC3E00000#32

variable (hs : SH.Idx → EReal) (w : SW.Idx → EReal)

/-- The sum over the four shards. -/
def xsum (r : Fin 8192) (q : Fin 4096) : EReal := ∑ j : Fin 4, hs (ix3 j r q)

/-- The normalised value. -/
def normed (r : Fin 8192) (q : Fin 4096) : EReal :=
  xsum hs r q * Ideal.rsqrt (Ideal.div (∑ k : Fin 4096, xsum hs r k * xsum hs r k) cN + cEps) * w (ix1 q)

/-- The normalised array. -/
def normedArr : SN.Idx → EReal := fun i => normed hs w (i 0) (i 1)

theorem normedArr_ix2 (r : Fin 8192) (q : Fin 4096) : normedArr hs w (ix2 r q) = normed hs w r q := rfl

/-- Its absolute value. -/
def absArr : SN.Idx → EReal := fun i => max (normedArr hs w i) (-(normedArr hs w i))

/-- The global maximum of the absolute values, from −∞. -/
def amax : EReal := (Finset.univ : Finset SN.Idx).fold max cBot (absArr hs w)

theorem amax_le_iff (c : EReal) : amax hs w ≤ c ↔ cBot ≤ c ∧ ∀ (r : Fin 8192) (q : Fin 4096), max (normed hs w r q) (-(normed hs w r q)) ≤ c := by
  unfold amax
  rw [Finset.fold_max_le]
  constructor
  · rintro ⟨hb, h⟩; exact ⟨hb, fun r q => h (ix2 r q) (Finset.mem_univ _)⟩
  · rintro ⟨hb, h⟩
    refine ⟨hb, fun i _ => ?_⟩
    rw [eq_ix2 i]
    exact h (i 0) (i 1)

/-- A value with the maximum's universal property is the maximum. -/
theorem eq_amax_of_le_iff (z : EReal)
    (hz : ∀ c : EReal, z ≤ c ↔ cBot ≤ c ∧ ∀ (r : Fin 8192) (q : Fin 4096), max (normed hs w r q) (-(normed hs w r q)) ≤ c) : z = amax hs w :=
  eq_of_forall_ge_iff fun c => (hz c).trans (amax_le_iff hs w c).symm

/-- The scale. -/
def scale : EReal := Ideal.div (max (amax hs w) cTiny) cHi

/-- The quantised array. -/
def qArr : SN.Idx → EReal := fun i => min cHi (max cLo (Ideal.div (normedArr hs w i) (scale hs w)))

end Cert.RmsQuantSpec

end
-- ==== Proof.KIPayloads.lean ====
/-
  The kernel bodies' arithmetic read at a coordinate, on the extended reals. For a 4x128x4096 input block x and the weight
  vector w, the normalised tile at (p, q) is
      s(p, q) · rsqrt( (Σ_k s(p, k)²) / 4096 + ε ) · w(q),     s(p, q) = Σ_{j<4} x(j, p, q),
  the tile's maximum is below a bound c exactly when −∞ and every |tile(p, q)| are, the running maximum is the maximum
  of the previous one and the tile's, the scale is max(running maximum, tiny) / 448, and the quantised block at (p, q) is
  min(448, max(−448, y(p, q) / scale)).
-/
import proofs.«140853_j7095285973068_1_alg».proof.Proof.Gen.KernelIdeal.Skeleton
import proofs.«140853_j7095285973068_1_alg».proof.Proof.LibKeepdimsLayout
import proofs.«140853_j7095285973068_1_alg».proof.Proof.RmsQuantSpec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Idealize.ShloMosaic Idealize.ShloMosaic.ValueIdx Idealize.ShloMosaic.KeepdimsLayout
open Cert.KernelIdeal Cert.KernelIdeal.Gen
open Cert.RmsQuantSpec (cN cEps cBot cTiny cHi cLo)

/-- The sum over the four shards of a block, at (p, q). -/
def bsum (x0 : FVec Ideal S4x128x4096 .f32) (p : Fin 128) (q : Fin 4096) : EReal := ∑ j : Fin 4, x0 (ix3 j p q)

/-- The normalised tile at (p, q). -/
def tile (x0 : FVec Ideal S4x128x4096 .f32) (x1 : FVec Ideal S4096 .f32) (p : Fin 128) (q : Fin 4096) : EReal :=
  bsum x0 p q * Ideal.rsqrt (Ideal.div (∑ k : Fin 4096, bsum x0 p k * bsum x0 p k) cN + cEps) * x1 (ix1 q)

theorem shardSum_apply (x0 : FVec Ideal S4x128x4096 .f32) (p : Fin 128) (q : Fin 4096) :
    multiReduction (F := Ideal) .add [0] S128x4096 x0 0x00000000#32 reduces_S4x128x4096_S128x4096 (.inl rfl) rfl (ix2 p q) = bsum x0 p q := by
  refine (Ideal.multiReduction_add_single x0 0x00000000#32 reduces_S4x128x4096_S128x4096 (.inl rfl) rfl (ix2 p q)).trans ?_
  exact Finset.sum_congr rfl fun k _ => congrArg x0 (funext fun a => Fin.ext (by match a with | ⟨0, _⟩ => rfl | ⟨1, _⟩ => rfl | ⟨2, _⟩ => rfl))

theorem rowSum_apply (v : FVec Ideal S128x4096 .f32) (p : Fin 128) :
    multiReduction (F := Ideal) .add [1] S128 v 0x00000000#32 reduces_S128x4096_S128 (.inl rfl) rfl (ix1 p) = ∑ k : Fin 4096, v (ix2 p k) := by
  refine (Ideal.multiReduction_add_single v 0x00000000#32 reduces_S128x4096_S128 (.inl rfl) rfl (ix1 p)).trans ?_
  exact Finset.sum_congr rfl fun k _ => congrArg v (funext fun a => Fin.ext (by match a with | ⟨0, _⟩ => rfl | ⟨1, _⟩ => rfl))

theorem rowMax_apply (v : FVec Ideal S128x4096 .f32) (p : Fin 128) :
    multiReduction (F := Ideal) .maximumf [1] S128 v 0xFF800000#32 reduces_S128x4096_S128 (.inl rfl) rfl (ix1 p)
      = (Finset.univ : Finset (Fin 4096)).fold max cBot (fun k => v (ix2 p k)) := by
  refine (Ideal.multiReduction_maximumf_single v 0xFF800000#32 reduces_S128x4096_S128 (.inl rfl) rfl (ix1 p)).trans ?_
  refine congrArg (Finset.fold max cBot · (Finset.univ : Finset (Fin 4096))) (funext fun k => ?_)
  exact congrArg v (funext fun a => Fin.ext (by match a with | ⟨0, _⟩ => rfl | ⟨1, _⟩ => rfl))

theorem colMax_apply (v : FVec Ideal S128x1 .f32) (u : Fin 1) :
    multiReduction (F := Ideal) .maximumf [0] S1 v 0xFF800000#32 reduces_S128x1_S1 (.inl rfl) rfl (ix1 u)
      = (Finset.univ : Finset (Fin 128)).fold max cBot (fun k => v (ix2 k u)) := by
  refine (Ideal.multiReduction_maximumf_single v 0xFF800000#32 reduces_S128x1_S1 (.inl rfl) rfl (ix1 u)).trans ?_
  refine congrArg (Finset.fold max cBot · (Finset.univ : Finset (Fin 128))) (funext fun k => ?_)
  exact congrArg v (funext fun a => Fin.ext (by match a with | ⟨0, _⟩ => rfl | ⟨1, _⟩ => rfl))

theorem col_cast (v : FVec Ideal S128 .f32) (p : Fin 128) (u : Fin 1) :
    shapeCast S128x1 v shapeCasts_S128_S128x1 (ix2 p u) = v (ix1 p) := shapeCast_a_a1_apply v _ p u
theorem col_bcast (v : FVec Ideal S128x1 .f32) (p : Fin 128) (q : Fin 4096) :
    broadcastTo S128x4096 v broadcasts_S128x1_S128x4096 (ix2 p q) = v (ix2 p (0 : Fin 1)) := broadcastTo_a1_ab_apply v _ p q
theorem row_cast (v : FVec Ideal S4096 .f32) (u : Fin 1) (q : Fin 4096) :
    shapeCast S1x4096 v shapeCasts_S4096_S1x4096 (ix2 u q) = v (ix1 q) := shapeCast_a_1a_apply v _ u q
theorem row_bcast (v : FVec Ideal S1x4096 .f32) (p : Fin 128) (q : Fin 4096) :
    broadcastTo S128x4096 v broadcasts_S1x4096_S128x4096 (ix2 p q) = v (ix2 (0 : Fin 1) q) := broadcastTo_1b_ab_apply v _ p q
theorem one_cast (v : FVec Ideal S1 .f32) (u u' : Fin 1) :
    shapeCast S1x1 v shapeCasts_S1_S1x1 (ix2 u u') = v (ix1 u') := shapeCast_a_1a_apply v _ u u'

theorem rsqrt_at {s : Shape} (v : FVec Ideal s .f32) (i : s.Idx) : rsqrt v i = Ideal.rsqrt (v i) := rfl
theorem absf_at {s : Shape} (v : FVec Ideal s .f32) (i : s.Idx) : absf v i = max (v i) (-(v i)) := rfl

/-- THE NORMALISED TILE at (p, q). -/
theorem pay1_apply (x0 : FVec Ideal S4x128x4096 .f32) (x1 : FVec Ideal S4096 .f32) (p : Fin 128) (q : Fin 4096) :
    k0_pay1 (F := Ideal) x0 x1 (ix2 p q) = tile x0 x1 p q := by
  unfold k0_pay1 tile
  dsimp only
  simp only [mulf_apply, col_bcast, row_bcast, row_cast]
  refine congrArg₂ (· * ·) (congrArg₂ (· * ·) (shardSum_apply x0 p q) ?_) rfl
  refine (rsqrt_at _ _).trans (congrArg Ideal.rsqrt ?_)
  refine (addf_apply _ _ _).trans (congrArg₂ (· + ·) ?_ rfl)
  refine (divf_apply _ _ _).trans (congrArg₂ Ideal.div ?_ rfl)
  refine (col_cast _ p 0).trans ((rowSum_apply _ p).trans ?_)
  exact Finset.sum_congr rfl fun k _ => congrArg₂ (· * ·) (shardSum_apply x0 p k) (shardSum_apply x0 p k)

/-- |tile| at (p, q). -/
def atile (x0 : FVec Ideal S4x128x4096 .f32) (x1 : FVec Ideal S4096 .f32) (p : Fin 128) (q : Fin 4096) : EReal :=
  max (tile x0 x1 p q) (-(tile x0 x1 p q))

/-- A row maximum is below `c` exactly when −∞ and every entry of the row are. -/
theorem rowMax_le_iff (v : FVec Ideal S128x4096 .f32) (p : Fin 128) (c : EReal) :
    multiReduction (F := Ideal) .maximumf [1] S128 v 0xFF800000#32 reduces_S128x4096_S128 (.inl rfl) rfl (ix1 p) ≤ c
      ↔ cBot ≤ c ∧ ∀ q : Fin 4096, v (ix2 p q) ≤ c := by
  rw [rowMax_apply, Finset.fold_max_le]
  simp only [Finset.mem_univ, forall_true_left]

/-- THE TILE'S MAXIMUM is below `c` exactly when −∞ and every |tile(p, q)| are. -/
theorem pay2_le_iff (x0 : FVec Ideal S4x128x4096 .f32) (x1 : FVec Ideal S4096 .f32) (u u' : Fin 1) (c : EReal) :
    k0_pay2 (F := Ideal) x0 x1 (ix2 u u') ≤ c ↔ cBot ≤ c ∧ ∀ (p : Fin 128) (q : Fin 4096), atile x0 x1 p q ≤ c := by
  unfold k0_pay2
  dsimp only
  rw [one_cast, colMax_apply, Finset.fold_max_le]
  refine and_congr_right fun hb => ?_
  constructor
  · intro h p q
    have h1 := h p (Finset.mem_univ _)
    rw [col_cast] at h1
    have h2 := ((rowMax_le_iff _ p c).mp h1).2 q
    rw [absf_at, pay1_apply] at h2
    exact h2
  · intro h p _
    rw [col_cast]
    refine (rowMax_le_iff _ p c).mpr ⟨hb, fun q => ?_⟩
    rw [absf_at, pay1_apply]
    exact h p q

theorem pay3_eq (x0 : FVec Ideal S4x128x4096 .f32) (x1 : FVec Ideal S4096 .f32) : k0_pay3 (F := Ideal) x0 x1 = k0_pay2 x0 x1 := by
  unfold k0_pay3; exact shapeCast_self _ _

theorem pay4_apply (x0 : FVec Ideal S4x128x4096 .f32) (x1 : FVec Ideal S4096 .f32) (xs : FVec Ideal S1x1 .f32) (j : S1x1.Idx) :
    k0_pay4 (F := Ideal) x0 x1 xs j = max (xs j) (k0_pay2 x0 x1 j) := by
  unfold k0_pay4; rw [shapeCast_self]; rfl

theorem pay5_apply (v : FVec Ideal S1x1 .f32) (j : S1x1.Idx) :
    k0_pay5 (F := Ideal) v j = Ideal.div (max (v j) cTiny) cHi := by
  unfold k0_pay5; rfl

/-- The scalar the quantiser extracts is the one-by-one block's entry. -/
theorem extract00 (s : FVec Ideal S1x1 .f32) : extractAt ![0, 0] s inpos_S1x1_p0_0 = s (ix2 (0 : Fin 1) (0 : Fin 1)) := by
  unfold extractAt
  exact congrArg s (funext fun a => Fin.ext (by match a with | ⟨0, _⟩ => rfl | ⟨1, _⟩ => rfl))

/-- THE QUANTISED BLOCK at an index. -/
theorem qpay_apply (s : FVec Ideal S1x1 .f32) (y : FVec Ideal S256x4096 .f32) (j : S256x4096.Idx) :
    k1_pay1 (F := Ideal) s y j = min cHi (max cLo (Ideal.div (y j) (s (ix2 (0 : Fin 1) (0 : Fin 1))))) := by
  unfold k1_pay1; rw [shapeCast_self, extract00]; rfl

end Cert.KernelIdeal.Pay

end
-- ==== Proof.KINormFinal.lean ====
/-
  What the normalisation region leaves in its two output arrays, on the extended reals, as functions of the arrays it
  finds (hs, the four shards; w, the weights). Block t of the input window holds rows 128t .. 128t+127 of every shard, so
  the tile the body stores at point t is rows 128t .. 128t+127 of the normalised array, and the 64 write-backs tile it.
  The running maximum after point n is below a bound exactly when −∞ and every |normed| of the rows seen so far are; after
  the last point that is the maximum's universal property over ALL rows, so the scale the last point stores is the
  specification's.
-/
import proofs.«140853_j7095285973068_1_alg».proof.Proof.KINormValue
import proofs.«140853_j7095285973068_1_alg».proof.Proof.KIPayloads

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Pay Cert.RmsQuantSpec

variable (V : (c : Dev nD) → (b : Ref sig .tc) → Buf (Elt Ideal) ((c : Thread nD τ).loc b))

/-- The printed index maps, decided over the grid: the input block moves along the rows with the point, the weights and the
    scale window never move, the tile window moves with the point. -/
theorem idx_facts0 : ∀ t : Fin cfg0.N,
    win0_0.index t (0 : Fin 3) = 0 ∧ win0_0.index t (1 : Fin 3) = t.val ∧ win0_0.index t (2 : Fin 3) = 0
    ∧ win0_1.index t (0 : Fin 1) = 0
    ∧ win0_2.index t (0 : Fin 2) = t.val ∧ win0_2.index t (1 : Fin 2) = 0
    ∧ win0_3.index t (0 : Fin 2) = 0 ∧ win0_3.index t (1 : Fin 2) = 0 :=
  (by decide +kernel : ∀ t : Fin grid0.N, _)

theorem lt64 (t : Fin cfg0.N) : t.val < 64 := lt_of_lt_of_eq t.isLt (show cfg0.N = 64 from N_0)

/-- Row p of block t is row 128t + p of the array. -/
abbrev rowOf (tv : ℕ) (htv : tv < 64) (p : Fin 128) : Fin 8192 := ⟨128 * tv + p.val, by have := p.isLt; omega⟩

/-- The input block at point t, read at (j, p, k). -/
theorem iblk0_0_apply (c : Dev nD) (t : Fin cfg0.N) (j : Fin 4) (p : Fin 128) (k : Fin 4096) :
    (iblk0 V c 0 t : FVec Ideal S4x128x4096 .f32) (ix3 j p k) = V c main_arg0 (ix3 j (rowOf t.val (lt64 t) p) k) := by
  obtain ⟨e0, e1, e2, -⟩ := idx_facts0 t
  unfold iblk0
  rw [View.read_apply]
  show V c main_arg0 _ = V c main_arg0 _
  refine congrArg _ (funext fun a => Fin.ext ?_)
  match a with
  | ⟨0, _⟩ => show win0_0.index t (0 : Fin 3) * 4 + 1 * j.val = j.val; omega
  | ⟨1, _⟩ => show win0_0.index t (1 : Fin 3) * 128 + 1 * p.val = 128 * t.val + p.val; omega
  | ⟨2, _⟩ => show win0_0.index t (2 : Fin 3) * 4096 + 1 * k.val = k.val; omega

/-- The weight block at any point is the weight vector. -/
theorem iblk0_1_apply (c : Dev nD) (t : Fin cfg0.N) (q : Fin 4096) :
    (iblk0 V c 1 t : FVec Ideal S4096 .f32) (ix1 q) = V c main_arg2 (ix1 q) := by
  obtain ⟨-, -, -, e3, -⟩ := idx_facts0 t
  unfold iblk0
  rw [View.read_apply]
  show V c main_arg2 _ = V c main_arg2 _
  refine congrArg _ (funext fun a => Fin.ext ?_)
  match a with
  | ⟨0, _⟩ => show win0_1.index t (0 : Fin 1) * 4096 + 1 * q.val = q.val; omega

/-- The tile of a block that holds rows 128t .. of the shards is those rows of the normalised array. -/
theorem tile_block (hs : SH.Idx → EReal) (w : SW.Idx → EReal) (x0 : FVec Ideal S4x128x4096 .f32) (x1 : FVec Ideal S4096 .f32)
    (tv : ℕ) (htv : tv < 64)
    (hx0 : ∀ (j : Fin 4) (p : Fin 128) (k : Fin 4096), x0 (ix3 j p k) = hs (ix3 j (rowOf tv htv p) k))
    (hx1 : ∀ q : Fin 4096, x1 (ix1 q) = w (ix1 q)) (p : Fin 128) (q : Fin 4096) :
    tile x0 x1 p q = normed hs w (rowOf tv htv p) q := by
  unfold tile normed xsum bsum
  simp only [hx0, hx1]

/-- The tile at point t. -/
theorem tile_at (c : Dev nD) (t : Fin cfg0.N) (p : Fin 128) (q : Fin 4096) :
    tile (iblk0 V c 0 t) (iblk0 V c 1 t) p q = normed (V c main_arg0) (V c main_arg2) (rowOf t.val (lt64 t) p) q :=
  tile_block (V c main_arg0) (V c main_arg2) _ _ t.val (lt64 t) (iblk0_0_apply V c t) (iblk0_1_apply V c t) p q

/-! ## The normalised array -/

/-- What point t writes back into the normalised array is block t of the specification's array. -/
theorem flushed2_eq (c : Dev nD) (t : Fin cfg0.N) :
    (dat0 V c).flushed 2 t = ((cfg0.win 2).blk t).view.read (Elt Ideal) (normedArr (V c main_arg0) (V c main_arg2)) := by
  obtain ⟨-, -, -, -, e4, e5, -⟩ := idx_facts0 t
  show (cfg0.win 2).cut (grid0.coords t) ((dat0 V c).after 2 t) = _
  rw [after0_2, outsAt_tile]
  funext y
  rw [View.read_apply]
  show k0_pay1 (F := Ideal) (iblk0 V c 0 t) (iblk0 V c 1 t) y = normedArr (V c main_arg0) (V c main_arg2) (((cfg0.win 2).blk t).view.emb y)
  have hy : (y : S128x4096.Idx) = ix2 (y 0) (y 1) := eq_ix2 y
  refine (congrArg (k0_pay1 (F := Ideal) (iblk0 V c 0 t) (iblk0 V c 1 t)) hy).trans ?_
  refine (pay1_apply _ _ _ _).trans ((tile_at V c t _ _).trans ?_)
  unfold normedArr
  refine congrArg₂ (normed (V c main_arg0) (V c main_arg2)) (Fin.ext ?_) (Fin.ext ?_)
  · show 128 * t.val + (y 0).val = win0_2.index t (0 : Fin 2) * 128 + 1 * (y 0).val; omega
  · show (y 1).val = win0_2.index t (1 : Fin 2) * 4096 + 1 * (y 1).val; omega

theorem mem_blk2 (t : Fin cfg0.N) (i : S8192x4096.Idx) :
    i ∈ ((cfg0.win 2).blk t).view.set ↔ ∀ a : Fin 2, win0_2.index t a * S128x4096.size a ≤ (i a).val ∧ (i a).val < win0_2.index t a * S128x4096.size a + S128x4096.size a := by
  show i ∈ ((View.whole main_v0_0).slice (win0_2.rect t)).set ↔ _
  rw [View.set_slice_whole, Rect.mem_set_unit]
  exact Iff.rfl

/-- THE NORMALISED ARRAY after the region is the specification's. -/
theorem final2 (c : Dev nD) : (dat0 V c).arrAt 2 cfg0.N = normedArr (V c main_arg0) (V c main_arg2) :=
  (dat0 V c).arrAt_eq_of_cover 2 _ (fun t _ => flushed2_eq V c t) fun i => by
    have hi0 : (i 0).val < 8192 := (i 0).isLt
    have hi1 : (i 1).val < 4096 := (i 1).isLt
    have hN : cfg0.N = 64 := N_0
    let t : Fin cfg0.N := ⟨(i 0).val / 128, by omega⟩
    obtain ⟨-, -, -, -, e4, e5, -⟩ := idx_facts0 t
    have ht : t.val = (i 0).val / 128 := rfl
    refine ⟨t, flush0_2 t, ?_⟩
    rw [mem_blk2]
    intro a
    match a with
    | ⟨0, _⟩ => show win0_2.index t (0 : Fin 2) * 128 ≤ (i 0).val ∧ (i 0).val < win0_2.index t (0 : Fin 2) * 128 + 128; omega
    | ⟨1, _⟩ => show win0_2.index t (1 : Fin 2) * 4096 ≤ (i 1).val ∧ (i 1).val < win0_2.index t (1 : Fin 2) * 4096 + 4096; omega

/-! ## The running maximum and the scale -/

/-- After point n the running maximum is below `b` exactly when −∞ and every |normed| of the rows of the tiles 0..n are. -/
theorem accAt_le_iff (c : Dev nD) (u u' : Fin 1) (b : EReal) : ∀ (n : ℕ) (h : n < cfg0.N),
    (accAt V c n h : FVec Ideal S1x1 .f32) (ix2 u u') ≤ b ↔ cBot ≤ b ∧ ∀ (t' : Fin cfg0.N), t'.val ≤ n → ∀ (p : Fin 128) (q : Fin 4096),
      atile (iblk0 V c 0 t') (iblk0 V c 1 t') p q ≤ b
  | 0, h => by
    rw [show accAt V c 0 h = k0_pay3 (F := Ideal) (iblk0 V c 0 ⟨0, h⟩) (iblk0 V c 1 ⟨0, h⟩) from rfl, pay3_eq, pay2_le_iff]
    refine and_congr_right fun _ => ⟨fun hh t' ht' => ?_, fun hh => hh ⟨0, h⟩ (Nat.le_refl _)⟩
    obtain rfl : t' = ⟨0, h⟩ := Fin.ext (Nat.le_zero.mp ht')
    exact hh
  | n + 1, h => by
    rw [show accAt V c (n + 1) h = k0_pay4 (F := Ideal) (iblk0 V c 0 ⟨n + 1, h⟩) (iblk0 V c 1 ⟨n + 1, h⟩) (accAt V c n (Nat.lt_of_succ_lt h)) from rfl,
      pay4_apply, max_le_iff, accAt_le_iff c u u' b n (Nat.lt_of_succ_lt h), pay2_le_iff]
    constructor
    · rintro ⟨⟨hb, h1⟩, -, h2⟩
      refine ⟨hb, fun t' ht' => ?_⟩
      rcases Nat.lt_or_ge t'.val (n + 1) with hlt | hge
      · exact h1 t' (Nat.lt_succ_iff.mp hlt)
      · obtain rfl : t' = ⟨n + 1, h⟩ := Fin.ext (Nat.le_antisymm ht' hge)
        exact h2
    · rintro ⟨hb, hh⟩
      exact ⟨⟨hb, fun t' ht' => hh t' (Nat.le_succ_of_le ht')⟩, hb, hh ⟨n + 1, h⟩ (Nat.le_refl _)⟩

theorem h63 : 63 < cfg0.N := by have : cfg0.N = 64 := N_0; omega

/-- THE FINAL RUNNING MAXIMUM is the global maximum of |normed|. -/
theorem acc_last (c : Dev nD) (u u' : Fin 1) :
    (accAt V c 63 h63 : FVec Ideal S1x1 .f32) (ix2 u u') = amax (V c main_arg0) (V c main_arg2) := by
  refine eq_amax_of_le_iff _ _ _ fun b => ?_
  rw [accAt_le_iff V c u u' b 63 h63]
  refine and_congr_right fun _ => ⟨fun hh r q => ?_, fun hh t' _ p q => ?_⟩
  · have hr : r.val < 8192 := r.isLt
    have hN : cfg0.N = 64 := N_0
    have := hh ⟨r.val / 128, by omega⟩ (by show r.val / 128 ≤ 63; omega) ⟨r.val % 128, Nat.mod_lt _ (by decide)⟩ q
    unfold atile at this
    rw [tile_at] at this
    have er : rowOf (r.val / 128) (by omega) ⟨r.val % 128, Nat.mod_lt _ (by decide)⟩ = r := Fin.ext (by show 128 * (r.val / 128) + r.val % 128 = r.val; omega)
    rw [er] at this
    exact this
  · unfold atile
    rw [tile_at]
    exact hh _ q

/-- The one write-back of the scale window, at the last point, writes the one-by-one array whole. -/
def scaleBlock (c : Dev nD) : Buf (Elt Ideal) ((c : Thread nD τ).loc main_v0_1) := k0_pay5 (F := Ideal) (accAt V c 63 h63)

theorem flushed3_eq (c : Dev nD) (t : Fin cfg0.N) (hf : (cfg0.win 3).flush t = true) :
    (dat0 V c).flushed 3 t = ((cfg0.win 3).blk t).view.read (Elt Ideal) (scaleBlock V c) := by
  have hN : t.val < 64 := lt64 t
  have h3 : t.val = 63 := by have := (flush0_3 t).mp hf; omega
  obtain ⟨-, -, -, -, -, -, e6, e7⟩ := idx_facts0 t
  show (cfg0.win 3).cut (grid0.coords t) ((dat0 V c).after 3 t) = _
  rw [after0_3, outsAt_scale V c t h3]
  have hz' : (fun a => win0_3.index t a * main_v0_1.ty.shape.size a) = fun _ => 0 := funext fun a => by
    match a with
    | ⟨0, _⟩ => show win0_3.index t (0 : Fin 2) * 1 = 0; omega
    | ⟨1, _⟩ => show win0_3.index t (1 : Fin 2) * 1 = 0; omega
  obtain ⟨n, hn⟩ := t
  have hn63 : n = 63 := h3
  subst hn63
  exact (Memref.read_access_unit_zero (Elt Ideal) main_v0_1 hz' (fun a => by rw [congrFun hz' a]; simp) (scaleBlock V c)).symm

/-- THE SCALE ARRAY after the region. -/
theorem final3 (c : Dev nD) : (dat0 V c).arrAt 3 cfg0.N = scaleBlock V c :=
  (dat0 V c).arrAt_eq_of_cover 3 _ (flushed3_eq V c) fun i => by
    let t : Fin cfg0.N := ⟨63, h63⟩
    obtain ⟨-, -, -, -, -, -, e6, e7⟩ := idx_facts0 t
    refine ⟨t, (flush0_3 t).mpr rfl, ?_⟩
    show i ∈ ((View.whole main_v0_1).slice (win0_3.rect t)).set
    rw [View.set_slice_whole, Rect.mem_set_unit]
    intro a
    have h0 : (i 0 : Nat) < 1 := (i 0).isLt
    have h1 : (i 1 : Nat) < 1 := (i 1).isLt
    match a with
    | ⟨0, _⟩ => show win0_3.index t (0 : Fin 2) * 1 ≤ (i 0 : Nat) ∧ (i 0 : Nat) < win0_3.index t (0 : Fin 2) * 1 + 1; omega
    | ⟨1, _⟩ => show win0_3.index t (1 : Fin 2) * 1 ≤ (i 1 : Nat) ∧ (i 1 : Nat) < win0_3.index t (1 : Fin 2) * 1 + 1; omega

/-- Its one entry is the specification's scale. -/
theorem scaleBlock_apply (c : Dev nD) (u u' : Fin 1) :
    (scaleBlock V c : FVec Ideal S1x1 .f32) (ix2 u u') = scale (V c main_arg0) (V c main_arg2) := by
  unfold scaleBlock scale
  rw [pay5_apply, acc_last]

end Cert.KernelIdeal.Hand

end
-- ==== Proof.KIQuantFinal.lean ====
/-
  What the quantisation region leaves in its output array, on the extended reals: block t of its input window holds rows
  256t .. 256t+255 of the array y it finds, its one-element window holds the scale s, and the block it stores at point t is
  rows 256t .. 256t+255 of   i ↦ min(448, max(−448, y(i) / s)) ; the 32 write-backs tile the array.
-/
import proofs.«140853_j7095285973068_1_alg».proof.Proof.KIQuantBody
import proofs.«140853_j7095285973068_1_alg».proof.Proof.KIPayloads

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Pay Cert.RmsQuantSpec

variable (V : (c : Dev nD) → (b : Ref sig .tc) → Buf (Elt Ideal) ((c : Thread nD τ).loc b))

theorem hzq : (![0, 0] : Fin 2 → Nat) = fun _ => 0 := funext fun a => by fin_cases a <;> rfl

/-- The printed index maps, decided over the grid. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The clipped quotient of an array by the one entry of a one-by-one array. -/
def quantOf (y : S8192x4096.Idx → EReal) (s : S1x1.Idx → EReal) : S8192x4096.Idx → EReal :=
  fun i => min cHi (max cLo (Ideal.div (y i) (s (ix2 (0 : Fin 1) (0 : Fin 1)))))

/-- What point t writes back is block t of the clipped quotient of the arrays the region finds. -/
theorem flushedq_eq (c : Dev nD) (t : Fin cfg1.N) :
    (dat1 V c).flushed 2 t = ((cfg1.win 2).blk t).view.read (Elt Ideal) (quantOf (V c main_v0_0) (V c main_v0_1)) := by
  obtain ⟨e0, e1, e2, e3, e4, e5⟩ := idx_facts1 t
  show (cfg1.win 2).cut (grid1.coords t) ((dat1 V c).after 2 t) = _
  rw [after1_2]
  unfold out1_2
  rw [View.canon_unit_zero hzq]
  simp only [View.ld_unit_zero (S := S256x4096) hzq, View.ld_unit_zero (S := S1x1) hzq]
  funext y
  rw [View.read_apply]
  show k1_pay1 (F := Ideal) (iblk1 V c 1 t) (iblk1 V c 0 t) y = quantOf (V c main_v0_0) (V c main_v0_1) (((cfg1.win 2).blk t).view.emb y)
  rw [qpay_apply]
  unfold quantOf
  have h0 : (iblk1 V c 0 t : FVec Ideal S256x4096 .f32) y = V c main_v0_0 (((cfg1.win 2).blk t).view.emb y) := by
    unfold iblk1
    rw [View.read_apply]
    show V c main_v0_0 _ = V c main_v0_0 _
    refine congrArg _ (funext fun a => Fin.ext ?_)
    match a with
    | ⟨0, _⟩ => show win1_0.index t (0 : Fin 2) * 256 + 1 * (y 0).val = win1_2.index t (0 : Fin 2) * 256 + 1 * (y 0).val; omega
    | ⟨1, _⟩ => show win1_0.index t (1 : Fin 2) * 4096 + 1 * (y 1).val = win1_2.index t (1 : Fin 2) * 4096 + 1 * (y 1).val; omega
  have h1 : (iblk1 V c 1 t : FVec Ideal S1x1 .f32) (ix2 (0 : Fin 1) (0 : Fin 1)) = V c main_v0_1 (ix2 (0 : Fin 1) (0 : Fin 1)) := by
    unfold iblk1
    rw [View.read_apply]
    show V c main_v0_1 _ = V c main_v0_1 _
    refine congrArg _ (funext fun a => Fin.ext ?_)
    match a with
    | ⟨0, _⟩ => show win1_1.index t (0 : Fin 2) * 1 + 1 * 0 = 0; omega
    | ⟨1, _⟩ => show win1_1.index t (1 : Fin 2) * 1 + 1 * 0 = 0; omega
  rw [h0, h1]

theorem mem_blkq (t : Fin cfg1.N) (i : S8192x4096.Idx) :
    i ∈ ((cfg1.win 2).blk t).view.set ↔ ∀ a : Fin 2, win1_2.index t a * S256x4096.size a ≤ (i a).val ∧ (i a).val < win1_2.index t a * S256x4096.size a + S256x4096.size a := by
  show i ∈ ((View.whole main_v1).slice (win1_2.rect t)).set ↔ _
  rw [View.set_slice_whole, Rect.mem_set_unit]
  exact Iff.rfl

/-- THE QUANTISED ARRAY after the region. -/
theorem finalq (c : Dev nD) : (dat1 V c).arrAt 2 cfg1.N = quantOf (V c main_v0_0) (V c main_v0_1) :=
  (dat1 V c).arrAt_eq_of_cover 2 _ (fun t _ => flushedq_eq V c t) fun i => by
    have hi0 : (i 0).val < 8192 := (i 0).isLt
    have hi1 : (i 1).val < 4096 := (i 1).isLt
    have hN : cfg1.N = 32 := N_1
    let t : Fin cfg1.N := ⟨(i 0).val / 256, by omega⟩
    obtain ⟨-, -, -, -, e4, e5⟩ := idx_facts1 t
    have ht : t.val = (i 0).val / 256 := rfl
    refine ⟨t, flush1_2 t, ?_⟩
    rw [mem_blkq]
    intro a
    match a with
    | ⟨0, _⟩ => show win1_2.index t (0 : Fin 2) * 256 ≤ (i 0).val ∧ (i 0).val < win1_2.index t (0 : Fin 2) * 256 + 256; omega
    | ⟨1, _⟩ => show win1_2.index t (1 : Fin 2) * 4096 ≤ (i 1).val ∧ (i 1).val < win1_2.index t (1 : Fin 2) * 4096 + 4096; omega

end Cert.KernelIdeal.Hand

end
-- ==== Proof.KIValue.lean ====
/-
  The idealized kernel's two results, read off the contents of the last segment boundary, as the specification of the
  argument arrays: the quantised array is what the second region's write-backs leave, computed from the normalised array
  and the scale the first region left; the scalar result is the host's reshape of the one-by-one scale array.
-/
import proofs.«140853_j7095285973068_1_alg».proof.Proof.KIRun
import proofs.«140853_j7095285973068_1_alg».proof.Proof.KINormFinal
import proofs.«140853_j7095285973068_1_alg».proof.Proof.KIQuantFinal
import Idealize.ShloMosaic.Lib.StableHlo.Run

set_option maxRecDepth 16384

noncomputable section

namespace Cert.KernelIdeal.Hand

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.KernelIdeal.Pay Cert.RmsQuantSpec

variable (m : (ℓ : Loc nD τ sig) → Buf (Elt Ideal) ℓ) (ρ : Dev nD → PrngReg)

/-- The normalised array between the regions. -/
theorem Vn_normed (c : Dev nD) :
    Vn m ρ c main_v0_0 = normedArr (m ((c : Thread nD τ).loc main_arg0)) (m ((c : Thread nD τ).loc main_arg2)) :=
  (Wn_arr m ρ c 2).trans (final2 (Vl m ρ) c)

/-- The scale array between the regions. -/
theorem Vn_scale (c : Dev nD) : Vn m ρ c main_v0_1 = scaleBlock (Vl m ρ) c :=
  (Wn_arr m ρ c 3).trans (final3 (Vl m ρ) c)

/-- THE FIRST RESULT: the quantised array. -/
theorem We_main_v1 (c : Dev nD) :
    We m ρ c (Proc.devRef .tc main_v1) = qArr (m ((c : Thread nD τ).loc main_arg0)) (m ((c : Thread nD τ).loc main_arg2)) := by
  refine (We_of_ne m ρ c main_v1 (by decide)).trans ((Wq_arr m ρ c 2).trans ((finalq (Vn m ρ) c).trans ?_))
  funext i
  unfold quantOf qArr
  rw [Vn_normed, Vn_scale, scaleBlock_apply]

/-- The scale array is still there after the second region (it only reads it). -/
theorem Wq_scale (c : Dev nD) : Wq m ρ c (Proc.devRef .tc main_v0_1) = scaleBlock (Vl m ρ) c :=
  (Wq_arr m ρ c 1).trans (((dat1 (Vn m ρ) c).arrAt_in 1 rfl _).trans ((A_eq1 (Vn m ρ) c 1).trans (Vn_scale m ρ c)))

/-- THE SECOND RESULT: the scale, as a scalar. -/
theorem We_main_v2 (c : Dev nD) (j : S_.Idx) :
    (We m ρ c (Proc.devRef .tc main_v2) : S_.Idx → EReal) j = scale (m ((c : Thread nD τ).loc main_arg0)) (m ((c : Thread nD τ).loc main_arg2)) := by
  have e : (We m ρ c (Proc.devRef .tc main_v2) : S_.Idx → EReal) = shapeCast S_ (Wq m ρ c (Proc.devRef .tc main_v0_1)) shapeCasts_S1x1_S_ := by
    show StableHlo.after hostOps2 (Wq m ρ c) (Proc.devRef .tc main_v2) = _
    after_results
    rfl
  rw [e, Wq_scale]
  refine (shapeCast_apply _ shapeCasts_S1x1_S_ j (ix2 (0 : Fin 1) (0 : Fin 1)) ?_).trans (scaleBlock_apply (Vl m ρ) c 0 0)
  rw [Shape.rowMajor_val_two]
  have := (S_.rowMajor j).isLt
  have hn : S_.numel = 1 := by decide
  show 0 * 1 + 0 = _
  omega

/-- THE KERNEL'S RUN, read: both results at the specification of the arguments, the arguments unchanged. -/
theorem run_spec : θ_run defs (onTc (τ := τ) (main (F := Ideal))) ⟨m, fun _ => 0, ρ⟩ (fun r => ∀ c : Dev nD,
      r.2.mem ((c.tc : Thread nD τ).loc main_v1) = qArr (m ((c.tc : Thread nD τ).loc main_arg0)) (m ((c.tc : Thread nD τ).loc main_arg2))
      ∧ r.2.mem ((c.tc : Thread nD τ).loc main_v2) = (fun _ => scale (m ((c.tc : Thread nD τ).loc main_arg0)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c main_v1 (by decide)).trans (We_main_v1 m ρ c),
     (h c main_v2 (by decide)).trans (funext fun j => We_main_v2 m ρ c j),
     (h c main_arg0 (by decide)).trans (We_main_arg0 m ρ c),
     (h c main_arg1 (by decide)).trans (We_main_arg1 m ρ c),
     (h c main_arg2 (by decide)).trans (We_main_arg2 m ρ c)⟩) (run_all m ρ)

end Cert.KernelIdeal.Hand

end
-- ==== Proof.RefOps.lean ====
/-
  The reference program read one operation at a time: this module only brings the reference's run and its
  read-at-an-index lemmas into scope for the modules that compare it with the kernel.
-/
import proofs.«140853_j7095285973068_1_alg».proof.Proof.Gen.ReferenceIdeal.Read
-- ==== Proof.RefSpec.lean ====
/-
  The reference program computes the specification. Read one operation at a time: its sum over the four shards is
  x(r, q) (the host sum starts from the zero word, which denotes 0), its row sums of squares, quotient by 4096, ε,
  rsqrt, and the two broadcasts give normed(r, q); its reduce-maximum over both axes from −∞ folds `max` over EVERY
  index, which is amax; its last lines are the scale and the clipped quotient.
-/
import proofs.«140853_j7095285973068_1_alg».proof.Proof.RefOps
import proofs.«140853_j7095285973068_1_alg».proof.Proof.RmsQuantSpec
import Idealize.ShloMosaic.PureOps.Reduce

noncomputable section

namespace Cert.ReferenceIdeal.RefSpec

open Idealize.ShloMosaic Idealize.ShloMosaic.ValueIdx
open Cert.ReferenceIdeal Cert.ReferenceIdeal.Gen Cert.ReferenceIdeal.Read Cert.RmsQuantSpec

variable (x0 : (⟨S4x8192x4096, .f32⟩ : BufTy).Contents (Elt Ideal)) (x2 : (⟨S4096, .f32⟩ : BufTy).Contents (Elt Ideal))

/-- The all-reduce at (r, q). -/
theorem ref_xsum (i : S8192x4096.Idx) : val_main_v0 (F := Ideal) x0 i = xsum x0 (i 0) (i 1) := by
  rw [val_main_v0_apply, val_main_cst_apply]
  show Ideal.ofBits .f32 0x00000000#32 + _ = _
  rw [Ideal.ofBits_zero_f32, zero_add]
  unfold xsum
  exact Finset.sum_congr rfl fun k _ => congrArg x0 (funext fun a => Fin.ext (by match a with | ⟨0, _⟩ => rfl | ⟨1, _⟩ => rfl | ⟨2, _⟩ => rfl))

/-- The row sum of squares at r. -/
theorem ref_rowss (r : S8192.Idx) : val_main_v2 (F := Ideal) x0 r = ∑ k : Fin 4096, xsum x0 (r 0) k * xsum x0 (r 0) k := by
  rw [val_main_v2_apply, val_main_cst_0_apply]
  show Ideal.ofBits .f32 0x00000000#32 + _ = _
  rw [Ideal.ofBits_zero_f32, zero_add]
  refine Finset.sum_congr rfl fun k _ => ?_
  rw [val_main_v1_apply, ref_xsum]
  rfl

/-- The normalised array. -/
theorem ref_normed : val_main_v13 (F := Ideal) x0 x2 = normedArr x0 x2 := by
  funext i
  rw [val_main_v13_apply, val_main_v10_apply, val_main_v12_apply, val_main_v11_apply, val_main_v9_apply, val_main_v8_apply,
    val_main_v7_apply, val_main_v5_apply, val_main_v6_apply, val_main_cst_2_apply, val_main_v3_apply, val_main_v4_apply,
    val_main_cst_1_apply, ref_rowss, ref_xsum]
  unfold normedArr normed
  refine congrArg₂ (· * ·) rfl (congrArg x2 (funext fun a => Fin.ext (by match a with | ⟨0, _⟩ => rfl)))

instance : Subsingleton S_.Idx := ⟨fun a b => funext fun d => d.elim0⟩

/-- The global maximum. -/
theorem ref_amax (j : S_.Idx) : val_main_v15 (F := Ideal) x0 x2 j = amax x0 x2 := by
  unfold val_main_v15
  rw [Host.reduce_eq_fold]
  rw [Finset.filter_true_of_mem (fun i _ => Subsingleton.elim _ _)]
  have e : val_main_v14 (F := Ideal) x0 x2 = absArr x0 x2 := funext fun i => by
    rw [val_main_v14_apply, ref_normed]; rfl
  rw [e]
  rfl

/-- The scale. -/
theorem ref_scale (j : S_.Idx) : val_main_v17 (F := Ideal) x0 x2 j = scale x0 x2 := by
  rw [val_main_v17_apply, val_main_v16_apply, ref_amax, val_main_cst_4_apply, val_main_cst_5_apply]
  rfl

/-- The quantised array. -/
theorem ref_q (i : S8192x4096.Idx) : val_main_v20 (F := Ideal) x0 x2 i = qArr x0 x2 i := by
  rw [val_main_v20_apply, val_main_call0_v4_apply, val_main_call0_v3_apply, val_main_cst_7_apply, val_main_call0_v2_apply,
    val_main_call0_v1_apply, val_main_call0_v0_apply, val_main_cst_6_apply, val_main_v19_apply, val_main_v18_apply, ref_scale,
    ref_normed]
  rfl

end Cert.ReferenceIdeal.RefSpec

end
-- ==== Proof.lean ====
/-
  All-reduce over four shards, RMS normalisation and dynamic per-tensor quantisation: the kernel against its jnp reference.

  The kernel is two pipelined regions and a host reshape. The first region walks 64 tiles of 128 rows: at each it sums the
  four shards, normalises the rows (x · rsqrt(mean(x²) + ε) · w), writes the tile back, and keeps max |normed| so far in a
  one-element scratch (assigned at the first tile, max-ed in afterwards); at the last tile it writes max(that, tiny) / 448
  into a one-by-one array. The second region walks 32 tiles of 256 rows and writes min(448, max(−448, normed / scale)).
  The reference does the same in one pass with a single maximum over the whole array.

  Frames (both the word-level and the idealized kernel, one text read at either instance): each region's body is run
  once per control case (first / middle / last tile), the scratch's contents are carried by the region's invariant from
  tile to tile, and the program is three segments chained from the launch memory; no segment writes an argument.

  Values (at the extended reals): block t of the first region's input is rows 128t.. of the shards, so its write-backs tile
  the normalised array; the running maximum after the last tile is below a bound exactly when −∞ and every |normed(r, q)|
  are, which is the universal property of the reference's one maximum — the only law joining the two sides, and one that
  holds at the infinities too, so the precondition is never opened; the scale and the clipped quotient then agree term by
  term, every constant being the same word on both sides. The ideal pass rewrote nothing, so `preserves` is `True`.
-/
import proofs.«140853_j7095285973068_1_alg».proof.Defs
import proofs.«140853_j7095285973068_1_alg».proof.Proof.Gen.Kernel
import proofs.«140853_j7095285973068_1_alg».proof.Proof.Gen.KernelIdeal
import proofs.«140853_j7095285973068_1_alg».proof.Proof.Gen.ReferenceIdeal
import proofs.«140853_j7095285973068_1_alg».proof.Proof.Gen.Pre_finite_inputs
import proofs.«140853_j7095285973068_1_alg».proof.Proof.KBRun
import proofs.«140853_j7095285973068_1_alg».proof.Proof.KIValue
import proofs.«140853_j7095285973068_1_alg».proof.Proof.RefSpec
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

/-- The reference has no kernel: its frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end at the specification of arguments that agree. -/
theorem algebraic : Cert.algebraic_KernelIdeal_ReferenceIdeal := by
  intro m ρ m' ρ' _ hagree
  refine ⟨_, _, Cert.KernelIdeal.Hand.run_spec m ρ, ?_⟩
  refine (θ_run Cert.ReferenceIdeal.defs _ _).mono (fun _ h c => ?_) (Cert.ReferenceIdeal.Value.run (F := Ideal) m' ρ')
  obtain ⟨h20, h17, ha0, ha1, ha2⟩ := h c
  refine ⟨?_, ?_, ha0, ha1, ha2⟩
  · rw [h20, Cert.ReferenceIdeal.Read.val_main_v20_eq, (hagree c).1, (hagree c).2.2]
    exact funext fun i => Cert.ReferenceIdeal.RefSpec.ref_q _ _ i
  · rw [h17, Cert.ReferenceIdeal.Read.val_main_v17_eq, (hagree c).1, (hagree c).2.2]
    exact funext fun j => Cert.ReferenceIdeal.RefSpec.ref_scale _ _ j

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
